-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x256x64 : Shape := ⟨3, ![4, 256, 64]⟩
abbrev S4x64x256 : Shape := ⟨3, ![4, 64, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x256x64 : S_.BroadcastsInDim S4x256x64 (![] : Fin 0 → Fin S4x256x64.rank)
  reducesTo_S4x256x64_S_d0_1_2 : S4x256x64.ReducesTo [0, 1, 2] S_
  bcast_S_S4x64x256 : S_.BroadcastsInDim S4x64x256 (![] : Fin 0 → Fin S4x64x256.rank)
  reducesTo_S4x64x256_S_d0_1_2 : S4x64x256.ReducesTo [0, 1, 2] S_

variable [Facts]

def fn_part1 {F : FTy → Type} [FloatOps F] (main_arg4 : FVec F S4x64x256 .f32) (main_v13 : IVec S_ 1) (main_v16 : IVec S4x256x64 1) : IVec S_ 1 :=
  let main_c_5 : IVec S_ 1 := constantI S_ 1 1#1
  let main_v17 : IVec S_ 1 := (fun x v => Host.reduce IntOp.andi x v reducesTo_S4x256x64_S_d0_1_2 h_S_) main_v16 main_c_5
  let main_v18 : IVec S_ 1 := andi main_v13 main_v17
  let main_v19 : FVec F S4x64x256 .f32 := Host.absf main_arg4
  let main_cst_6 : FVec F S_ .f32 := constant S_ .f32 0x7F800000#32
  let main_v20 : FVec F S4x64x256 .f32 := broadcastInDim S4x64x256 ![] bcast_S_S4x64x256 main_cst_6
  let main_v21 : IVec S4x64x256 1 := cmpf .olt main_v19 main_v20
  let main_c_7 : IVec S_ 1 := constantI S_ 1 1#1
  let main_v22 : IVec S_ 1 := (fun x v => Host.reduce IntOp.andi x v reducesTo_S4x64x256_S_d0_1_2 h_S_) main_v21 main_c_7
  let main_v23 : IVec S_ 1 := andi main_v18 main_v22
  main_v23

def fn {F : FTy → Type} [FloatOps F] (main_arg0 : FVec F S4x4096x256 .f32) (main_arg1 : FVec F S4x256x64 .f32) (main_arg2 : FVec F S4x256x64 .f32) (main_arg3 : FVec F S4x256x64 .f32) (main_arg4 : FVec F S4x64x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x256x64 .f32 := Host.absf main_arg1
  let main_cst_0 : FVec F S_ .f32 := constant S_ .f32 0x7F800000#32
  let main_v5 : FVec F S4x256x64 .f32 := broadcastInDim S4x256x64 ![] bcast_S_S4x256x64 main_cst_0
  let main_v6 : IVec S4x256x64 1 := cmpf .olt main_v4 main_v5
  let main_c_1 : IVec S_ 1 := constantI S_ 1 1#1
  let main_v7 : IVec S_ 1 := (fun x v => Host.reduce IntOp.andi x v reducesTo_S4x256x64_S_d0_1_2 h_S_) main_v6 main_c_1
  let main_v8 : IVec S_ 1 := andi main_v3 main_v7
  let main_v9 : FVec F S4x256x64 .f32 := Host.absf main_arg2
  let main_cst_2 : FVec F S_ .f32 := constant S_ .f32 0x7F800000#32
  let main_v10 : FVec F S4x256x64 .f32 := broadcastInDim S4x256x64 ![] bcast_S_S4x256x64 main_cst_2
  let main_v11 : IVec S4x256x64 1 := cmpf .olt main_v9 main_v10
  let main_c_3 : IVec S_ 1 := constantI S_ 1 1#1
  let main_v12 : IVec S_ 1 := (fun x v => Host.reduce IntOp.andi x v reducesTo_S4x256x64_S_d0_1_2 h_S_) main_v11 main_c_3
  let main_v13 : IVec S_ 1 := andi main_v8 main_v12
  let main_v14 : FVec F S4x256x64 .f32 := Host.absf main_arg3
  let main_cst_4 : FVec F S_ .f32 := constant S_ .f32 0x7F800000#32
  let main_v15 : FVec F S4x256x64 .f32 := broadcastInDim S4x256x64 ![] bcast_S_S4x256x64 main_cst_4
  let main_v16 : IVec S4x256x64 1 := cmpf .olt main_v14 main_v15
  fn_part1 (F := F) main_arg4 main_v13 main_v16
-- ==== Kernel.lean ====
abbrev S4x4096x256 : Shape := ⟨3, ![4, 4096, 256]⟩
abbrev S4x256x64 : Shape := ⟨3, ![4, 256, 64]⟩
abbrev S4x64x256 : Shape := ⟨3, ![4, 64, 256]⟩
abbrev S1x4096x256 : Shape := ⟨3, ![1, 4096, 256]⟩
abbrev S4096x256 : Shape := ⟨2, ![4096, 256]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩
abbrev S4096x64 : Shape := ⟨2, ![4096, 64]⟩
abbrev S64x64 : Shape := ⟨2, ![64, 64]⟩

abbrev nBuf : Space → Nat
  | .hbm => 6
  | .vmem => 8
  | .smem => 0
  | _ => 0

abbrev bufTy : (tb : Table) → Fin (tcTables nBuf tb) → BufTy
  | .hbm, ⟨0, _⟩ => ⟨S4x4096x256, .f32⟩
  | .hbm, ⟨1, _⟩ => ⟨S4x256x64, .f32⟩
  | .hbm, ⟨2, _⟩ => ⟨S4x256x64, .f32⟩
  | .hbm, ⟨3, _⟩ => ⟨S4x256x64, .f32⟩
  | .hbm, ⟨4, _⟩ => ⟨S4x64x256, .f32⟩
  | .hbm, ⟨5, _⟩ => ⟨S4x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S4x256x64, .f32⟩
  | .local _ .vmem, ⟨3, _⟩ => ⟨S4x256x64, .f32⟩
  | .local _ .vmem, ⟨4, _⟩ => ⟨S4x256x64, .f32⟩
  | .local _ .vmem, ⟨5, _⟩ => ⟨S4x64x256, .f32⟩
  | .local _ .vmem, ⟨6, _⟩ => ⟨S1x4096x256, .f32⟩
  | .local _ .vmem, ⟨7, _⟩ => ⟨S1x4096x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S4x256x64_S1x256x64_0_0_0 : ∀ a, (![0, 0, 0] : Fin 3 → Nat) a + S1x256x64.size a ≤ S4x256x64.size a
  h_S1x256x64 : 0 < S1x256x64.numel
  shapeCasts_S1x256x64_S256x64 : S1x256x64.ShapeCasts S256x64
  inb_S4x64x256_S1x64x256_0_0_0 : ∀ a, (![0, 0, 0] : Fin 3 → Nat) a + S1x64x256.size a ≤ S4x64x256.size a
  h_S1x64x256 : 0 < S1x64x256.numel
  shapeCasts_S1x64x256_S64x256 : S1x64x256.ShapeCasts S64x256
  inb_S4x256x64_S1x256x64_1_0_0 : ∀ a, (![1, 0, 0] : Fin 3 → Nat) a + S1x256x64.size a ≤ S4x256x64.size a
  inb_S4x64x256_S1x64x256_1_0_0 : ∀ a, (![1, 0, 0] : Fin 3 → Nat) a + S1x64x256.size a ≤ S4x64x256.size a
  inb_S4x256x64_S1x256x64_2_0_0 : ∀ a, (![2, 0, 0] : Fin 3 → Nat) a + S1x256x64.size a ≤ S4x256x64.size a
  inb_S4x64x256_S1x64x256_2_0_0 : ∀ a, (![2, 0, 0] : Fin 3 → Nat) a + S1x64x256.size a ≤ S4x64x256.size a
  inb_S4x256x64_S1x256x64_3_0_0 : ∀ a, (![3, 0, 0] : Fin 3 → Nat) a + S1x256x64.size a ≤ S4x256x64.size a
  inb_S4x64x256_S1x64x256_3_0_0 : ∀ a, (![3, 0, 0] : Fin 3 → Nat) a + S1x64x256.size a ≤ S4x64x256.size a
  shapeCasts_S4096x256_S1x4096x256 : S4096x256.ShapeCasts S1x4096x256
  dot_S4096x256_S256x64_S4096x64_1_0_0_1_n_n_wf : DotDims.WF S4096x256 S256x64 S4096x64 [1] [0] [0] [1] [] []
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256x64.size a ≤ S4x256x64.size a
  hwx0_1 : ∀ i : grid0.Coords, EltTy.bits .f32 = 32 ∨ (Rect.block (s := S4x256x64) S4x256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x64.size a ≤ S4x256x64.size a
  hwx0_2 : ∀ i : grid0.Coords, EltTy.bits .f32 = 32 ∨ (Rect.block (s := S4x256x64) S4x256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256x64.size a ≤ S4x256x64.size a
  hwx0_3 : ∀ i : grid0.Coords, EltTy.bits .f32 = 32 ∨ (Rect.block (s := S4x256x64) S4x256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64x256.size a ≤ S4x64x256.size a
  hwx0_4 : ∀ i : grid0.Coords, EltTy.bits .f32 = 32 ∨ (Rect.block (s := S4x64x256) S4x64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x256.size a ≤ S4x4096x256.size a
  hwx0_5 : ∀ i : grid0.Coords, EltTy.bits .f32 = 32 ∨ (Rect.block (s := S4x4096x256) S1x4096x256.size (cc0_transform_5 i) (hinb0_5 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S4x256x64 : Shape := ⟨3, ![4, 256, 64]⟩
abbrev S4x64x256 : Shape := ⟨3, ![4, 64, 256]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩
abbrev S4x4096x64 : Shape := ⟨3, ![4, 4096, 64]⟩
abbrev S4x4096x4096 : Shape := ⟨3, ![4, 4096, 4096]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x256x64, .f32⟩
  | .hbm, ⟨2, _⟩ => ⟨S4x256x64, .f32⟩
  | .hbm, ⟨3, _⟩ => ⟨S4x256x64, .f32⟩
  | .hbm, ⟨4, _⟩ => ⟨S4x64x256, .f32⟩
  | .hbm, ⟨5, _⟩ => ⟨S1x256x64, .f32⟩
  | .hbm, ⟨6, _⟩ => ⟨S256x64, .f32⟩
  | .hbm, ⟨7, _⟩ => ⟨S1x256x64, .f32⟩
  | .hbm, ⟨8, _⟩ => ⟨S256x64, .f32⟩
  | .hbm, ⟨9, _⟩ => ⟨S1x256x64, .f32⟩
  | .hbm, ⟨10, _⟩ => ⟨S256x64, .f32⟩
  | .hbm, ⟨11, _⟩ => ⟨S1x64x256, .f32⟩
  | .hbm, ⟨12, _⟩ => ⟨S64x256, .f32⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S4x4096x4096, .f32⟩
  | .hbm, ⟨17, _⟩ => ⟨S4x4096x64, .f32⟩
  | .hbm, ⟨18, _⟩ => ⟨S4x4096x256, .f32⟩
  | .hbm, ⟨19, _⟩ => ⟨S4x4096x256, .f32⟩
  | .hbm, ⟨20, _⟩ => ⟨S1x256x64, .f32⟩
  | .hbm, ⟨21, _⟩ => ⟨S256x64, .f32⟩
  | .hbm, ⟨22, _⟩ => ⟨S1x256x64, .f32⟩
  | .hbm, ⟨23, _⟩ => ⟨S256x64, .f32⟩
  | .hbm, ⟨24, _⟩ => ⟨S1x256x64, .f32⟩
  | .hbm, ⟨25, _⟩ => ⟨S256x64, .f32⟩
  | .hbm, ⟨26, _⟩ => ⟨S1x64x256, .f32⟩
  | .hbm, ⟨27, _⟩ => ⟨S64x256, .f32⟩
  | .hbm, ⟨28, _⟩ => ⟨S4x4096x64, .f32⟩
  | .hbm, ⟨29, _⟩ => ⟨S4x4096x64, .f32⟩
  | .hbm, ⟨30, _⟩ => ⟨S4x4096x64, .f32⟩
  | .hbm, ⟨31, _⟩ => ⟨S4x4096x4096, .f32⟩
  | .hbm, ⟨32, _⟩ => ⟨S4x4096x64, .f32⟩
  | .hbm, ⟨33, _⟩ => ⟨S4x4096x256, .f32⟩
  | .hbm, ⟨34, _⟩ => ⟨S4x4096x256, .f32⟩
  | .hbm, ⟨35, _⟩ => ⟨S1x256x64, .f32⟩
  | .hbm, ⟨36, _⟩ => ⟨S256x64, .f32⟩
  | .hbm, ⟨37, _⟩ => ⟨S1x256x64, .f32⟩
  | .hbm, ⟨38, _⟩ => ⟨S256x64, .f32⟩
  | .hbm, ⟨39, _⟩ => ⟨S1x256x64, .f32⟩
  | .hbm, ⟨40, _⟩ => ⟨S256x64, .f32⟩
  | .hbm, ⟨41, _⟩ => ⟨S1x64x256, .f32⟩
  | .hbm, ⟨42, _⟩ => ⟨S64x256, .f32⟩
  | .hbm, ⟨43, _⟩ => ⟨S4x4096x64, .f32⟩
  | .hbm, ⟨44, _⟩ => ⟨S4x4096x64, .f32⟩
  | .hbm, ⟨45, _⟩ => ⟨S4x4096x64, .f32⟩
  | .hbm, ⟨46, _⟩ => ⟨S4x4096x4096, .f32⟩
  | .hbm, ⟨47, _⟩ => ⟨S4x4096x64, .f32⟩
  | .hbm, ⟨48, _⟩ => ⟨S4x4096x256, .f32⟩
  | .hbm, ⟨49, _⟩ => ⟨S4x4096x256, .f32⟩
  | .hbm, ⟨50, _⟩ => ⟨S1x256x64, .f32⟩
  | .hbm, ⟨51, _⟩ => ⟨S256x64, .f32⟩
  | .hbm, ⟨52, _⟩ => ⟨S1x256x64, .f32⟩
  | .hbm, ⟨53, _⟩ => ⟨S256x64, .f32⟩
  | .hbm, ⟨54, _⟩ => ⟨S1x256x64, .f32⟩
  | .hbm, ⟨55, _⟩ => ⟨S256x64, .f32⟩
  | .hbm, ⟨56, _⟩ => ⟨S1x64x256, .f32⟩
  | .hbm, ⟨57, _⟩ => ⟨S64x256, .f32⟩
  | .hbm, ⟨58, _⟩ => ⟨S4x4096x64, .f32⟩
  | .hbm, ⟨59, _⟩ => ⟨S4x4096x64, .f32⟩
  | .hbm, ⟨60, _⟩ => ⟨S4x4096x64, .f32⟩
  | .hbm, ⟨61, _⟩ => ⟨S4x4096x4096, .f32⟩
  | .hbm, ⟨62, _⟩ => ⟨S4x4096x64, .f32⟩
  | .hbm, ⟨63, _⟩ => ⟨S4x4096x256, .f32⟩
  | .hbm, ⟨64, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩

abbrev nD : Nat := 1
abbrev τ : Topo := Topo.v7x

variable {F : FTy → Type} [FloatOps F]

class Facts₀ : Prop where
  slices_S4x256x64_S1x256x64_0_0_0 : S4x256x64.Slices ![0, 0, 0] S1x256x64
  shapeCasts_S1x256x64_S256x64 : S1x256x64.ShapeCasts S256x64
  slices_S4x64x256_S1x64x256_0_0_0 : S4x64x256.Slices ![0, 0, 0] S1x64x256
  shapeCasts_S1x64x256_S64x256 : S1x64x256.ShapeCasts S64x256
  slices_S4x256x64_S1x256x64_1_0_0 : S4x256x64.Slices ![1, 0, 0] S1x256x64
  slices_S4x64x256_S1x64x256_1_0_0 : S4x64x256.Slices ![1, 0, 0] S1x64x256
  slices_S4x256x64_S1x256x64_2_0_0 : S4x256x64.Slices ![2, 0, 0] S1x256x64
  slices_S4x64x256_S1x64x256_2_0_0 : S4x64x256.Slices ![2, 0, 0] S1x64x256
  slices_S4x256x64_S1x256x64_3_0_0 : S4x256x64.Slices ![3, 0, 0] S1x256x64
  slices_S4x64x256_S1x64x256_3_0_0 : S4x64x256.Slices ![3, 0, 0] S1x64x256
  dot_S4x4096x256_S256x64_S4x4096x64_2_0_01_1_n_n_wf : DotDims.WF S4x4096x256 S256x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]
  dot_S4x4096x64_S64x256_S4x4096x256_2_0_01_1_n_n_wf : DotDims.WF S4x4096x64 S64x256 S4x4096x256 [2] [0] [0, 1] [1] [] []

variable [Facts₀]

def dot_S4x4096x256_S256x64_S4x4096x64_2_0_01_1_n_n : DotDims S4x4096x256 S256x64 S4x4096x64 where
  lhsContracting := [2]
  rhsContracting := [0]
  lhsNonContracting := [0, 1]
  rhsNonContracting := [1]
  lhsBatch := []
  rhsBatch := []
  wf := dot_S4x4096x256_S256x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S64x256_S4x4096x256_2_0_01_1_n_n : DotDims S4x4096x64 S64x256 S4x4096x256 where
  lhsContracting := [2]
  rhsContracting := [0]
  lhsNonContracting := [0, 1]
  rhsNonContracting := [1]
  lhsBatch := []
  rhsBatch := []
  wf := dot_S4x4096x64_S64x256_S4x4096x256_2_0_01_1_n_n_wf

class Facts : Prop extends Facts₀ where

variable [Facts]
-- ==== Proof.FiniteInputs.lean ====
import proofs.«168384_j71511205478734_2_alg».proof.Pre_finite_inputs
import Idealize.ShloMosaic.PureOps.Ideal
import Idealize.ShloMosaic.Lib.ValueIdx
import Idealize.ShloMosaic.Lib.ReduceAll

/-!
  The precondition `finite_inputs`, read back at the extended reals: each of the five inputs satisfies
  `all(|a| < +∞)`, and an extended real whose absolute value lies strictly below `+∞` is neither `+∞`
  nor `-∞`, that is, it is a real number. So every entry of every input is a real number.
-/

noncomputable section

namespace Cert.FiniteInputs

open Idealize.ShloMosaic

/-- An extended real is a real number. -/
def IsReal (x : EReal) : Prop := ∃ r : ℝ, x = (r : EReal)

/-- The shape of rank zero has exactly one index. -/
instance subsingleton_scalarIdx : Subsingleton Cert.Pre_finite_inputs.S_.Idx :=
  ⟨fun a b => funext fun d => d.elim0⟩

/-- The binary32 pattern with all exponent bits set and a zero significand denotes `+∞`. -/
theorem ofBits_inf : Ideal.ofBits .f32 0x7F800000#32 = (⊤ : EReal) := by
  simp [Ideal.ofBits, Ideal.ieee]

/-- An extended real `a` with `max a (-a) < +∞` is a real number: `a = -∞` gives `-a = +∞` and `a = +∞`
    gives `a = +∞`, and in both cases the maximum is `+∞`. -/
theorem isReal_of_abs_lt_top (a : EReal) (h : max a (-a) < ⊤) : IsReal a := by
  induction a using EReal.rec with
  | bot => simp at h
  | coe r => exact ⟨r, rfl⟩
  | top => simp at h

/-- One entry: the comparison `|a| < +∞` coming out 1 says that `a` is a real number. -/
theorem isReal_of_cmp (a : Ideal .f32)
    (h : FloatOps.cmpf .olt (FloatOps.hostAbsf a) (FloatOps.ofBits (F := Ideal) .f32 0x7F800000#32) = 1#1) :
    IsReal a := by
  have h' : Ideal.cmp .olt (max (a : EReal) (-(a : EReal))) (Ideal.ofBits .f32 0x7F800000#32) = 1#1 := h
  rw [ofBits_inf] at h'
  refine isReal_of_abs_lt_top a ?_
  by_contra hn
  simp [Ideal.cmp, hn] at h'

/-- `all(|a| < +∞) = 1` over an arbitrary shape `S`: every entry of `a` is a real number. -/
theorem all_real {S : Shape} {axes : List (Fin S.rank)}
    (bc : Cert.Pre_finite_inputs.S_.BroadcastsInDim S (![] : Fin 0 → Fin S.rank))
    (rd : S.ReducesTo axes Cert.Pre_finite_inputs.S_) (hu : 0 < Cert.Pre_finite_inputs.S_.numel)
    (a : FVec Ideal S .f32)
    (h : Host.reduce IntOp.andi
          (cmpf .olt (Host.absf a)
            (broadcastInDim S ![] bc (constant (F := Ideal) Cert.Pre_finite_inputs.S_ .f32 0x7F800000#32)))
          (constantI Cert.Pre_finite_inputs.S_ 1 1#1) rd hu ValueIdx.ix0 = 1#1) :
    ∀ i, IsReal (a i) := by
  intro i
  have e := Host.reduce_andi_all _ _ rd hu ValueIdx.ix0 h i
  exact isReal_of_cmp (a i) e

theorem real_of_pre [Cert.Pre_finite_inputs.Facts]
    (x : FVec Ideal Cert.Pre_finite_inputs.S4x4096x256 .f32) (wq wk wv : FVec Ideal Cert.Pre_finite_inputs.S4x256x64 .f32)
    (wp : FVec Ideal Cert.Pre_finite_inputs.S4x64x256 .f32)
    (h : Cert.Pre_finite_inputs.fn (F := Ideal) x wq wk wv wp = fun _ => 1#1) :
    (∀ i, IsReal (x i)) ∧ (∀ i, IsReal (wq i)) ∧ (∀ i, IsReal (wk i)) ∧ (∀ i, IsReal (wv i)) ∧ (∀ i, IsReal (wp i)) := by
  have e := congrFun h ValueIdx.ix0
  unfold Cert.Pre_finite_inputs.fn Cert.Pre_finite_inputs.fn_part1 at e
  dsimp only at e
  -- the result is a four-fold conjunction of five `all`s: split it from the outside in
  obtain ⟨e, hp⟩ := IntOp.andi_eq_one.1 e
  obtain ⟨e, hv⟩ := IntOp.andi_eq_one.1 e
  obtain ⟨e, hk⟩ := IntOp.andi_eq_one.1 e
  obtain ⟨hx, hq⟩ := IntOp.andi_eq_one.1 e
  exact ⟨all_real _ _ _ x hx, all_real _ _ _ wq hq, all_real _ _ _ wk hk, all_real _ _ _ wv hv,
    all_real _ _ _ wp hp⟩

end Cert.FiniteInputs

end
-- ==== Proof.LinAttn.lean ====
/-
  Linear attention without softmax, one layer with its residual, as a function of matrices over the extended reals,
  in the two groupings that meet in this certificate.

  With Q = x·Wq, K = x·Wk, V = x·Wv (each entry a sum over the model axis), one layer sends x to
      x + (Q · (Kᵀ · V)) · Wp          (`layerK`: first the small κ×ν matrix KᵀV, summed over the rows, then Q times it)
  or to
      x + ((Q · Kᵀ) · V) · Wp          (`layerR`: first the row-by-row scores QKᵀ, then their product with V).
  The two agree by associativity of the matrix product, which is distributivity of · over a finite sum and an exchange of
  two finite sums. On the extended reals distributivity fails at the infinities, so the equality is stated for matrices
  whose entries are real numbers: such a matrix is the coercion `up` of a real matrix, both groupings of a layer of
  coerced matrices are the coercion of ONE real layer (`layerK_up`, `layerR_up`), and therefore a layer of real-entried
  matrices has real entries again, so that layers compose (`four_layers`).
-/
import Idealize.ShloMosaic.PureOps.Ideal

noncomputable section

open scoped BigOperators

namespace Cert.LinAttn

variable {α β σ δ κ ν : Type} [Fintype σ] [Fintype δ] [Fintype κ] [Fintype ν]

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The layer over the extended reals, in both groupings -/

/-- A projection x·W: entry (s, k) is the sum over the model axis of x[s, e]·W[e, k]. -/
def proj (x : σ → δ → EReal) (w : δ → κ → EReal) : σ → κ → EReal := fun s k => ∑ e, x s e * w e k

/-- The context Q·(KᵀV), the small matrix KᵀV first: entry (s, v) is Σ_k Q[s,k]·(Σ_t K[t,k]·V[t,v]). -/
def ctxK (x : σ → δ → EReal) (wq wk : δ → κ → EReal) (wv : δ → ν → EReal) : σ → ν → EReal :=
  fun s v => ∑ k, proj x wq s k * (∑ t, proj x wk t k * proj x wv t v)

/-- One layer, the small matrix KᵀV first: x + (Q·(KᵀV))·Wp. -/
def layerK (x : σ → δ → EReal) (wq wk : δ → κ → EReal) (wv : δ → ν → EReal) (wp : ν → δ → EReal) : σ → δ → EReal :=
  fun s d => x s d + ∑ v, ctxK x wq wk wv s v * wp v d

/-- The context (QKᵀ)·V, the scores QKᵀ first: entry (s, v) is Σ_t (Σ_k Q[s,k]·K[t,k])·V[t,v]. -/
def ctxR (x : σ → δ → EReal) (wq wk : δ → κ → EReal) (wv : δ → ν → EReal) : σ → ν → EReal :=
  fun s v => ∑ t, (∑ k, proj x wq s k * proj x wk t k) * proj x wv t v

/-- One layer, the scores QKᵀ first: x + ((QKᵀ)·V)·Wp. -/
def layerR (x : σ → δ → EReal) (wq wk : δ → κ → EReal) (wv : δ → ν → EReal) (wp : ν → δ → EReal) : σ → δ → EReal :=
  fun s d => x s d + ∑ v, ctxR x wq wk wv s v * wp v d

/-- Four layers, layer l with the l-th weights, every context with the small matrix first. -/
def stackK (x : σ → δ → EReal) (wq wk : Fin 4 → δ → κ → EReal) (wv : Fin 4 → δ → ν → EReal) (wp : Fin 4 → ν → δ → EReal) :
    σ → δ → EReal :=
  layerK (layerK (layerK (layerK x (wq 0) (wk 0) (wv 0) (wp 0)) (wq 1) (wk 1) (wv 1) (wp 1)) (wq 2) (wk 2) (wv 2) (wp 2))
    (wq 3) (wk 3) (wv 3) (wp 3)

/-- Four layers, every context with the scores first. -/
def stackR (x : σ → δ → EReal) (wq wk : Fin 4 → δ → κ → EReal) (wv : Fin 4 → δ → ν → EReal) (wp : Fin 4 → ν → δ → EReal) :
    σ → δ → EReal :=
  layerR (layerR (layerR (layerR x (wq 0) (wk 0) (wv 0) (wp 0)) (wq 1) (wk 1) (wv 1) (wp 1)) (wq 2) (wk 2) (wv 2) (wp 2))
    (wq 3) (wk 3) (wv 3) (wp 3)

/-! ## The same layer over the reals -/

/-- A real matrix read as a matrix of extended reals. -/
def up (f : α → β → ℝ) : α → β → EReal := fun a b => (f a b : EReal)

/-- A matrix all of whose entries are real numbers is the coercion of a real matrix. -/
theorem exists_up (f : α → β → EReal) (h : ∀ a b, ∃ r : ℝ, f a b = (r : EReal)) : ∃ g : α → β → ℝ, f = up g := by
  choose g hg using h
  exact ⟨g, funext fun a => funext fun b => hg a b⟩

/-- The real projection. -/
def projR (x : σ → δ → ℝ) (w : δ → κ → ℝ) : σ → κ → ℝ := fun s k => ∑ e, x s e * w e k

/-- The real layer, the small matrix first. -/
def layerReal (x : σ → δ → ℝ) (wq wk : δ → κ → ℝ) (wv : δ → ν → ℝ) (wp : ν → δ → ℝ) : σ → δ → ℝ :=
  fun s d => x s d + ∑ v, (∑ k, projR x wq s k * (∑ t, projR x wk t k * projR x wv t v)) * wp v d

/-- Associativity of the matrix product over the reals: Σ_t (Σ_k Q[s,k]·K[t,k])·V[t,v] = Σ_k Q[s,k]·(Σ_t K[t,k]·V[t,v]). -/
theorem assoc_real (q : σ → κ → ℝ) (k : σ → κ → ℝ) (v : σ → ν → ℝ) (s : σ) (c : ν) :
    ∑ t, (∑ a, q s a * k t a) * v t c = ∑ a, q s a * (∑ t, k t a * v t c) := by
  simp only [Finset.sum_mul, Finset.mul_sum]
  rw [Finset.sum_comm]
  exact Finset.sum_congr rfl fun a _ => Finset.sum_congr rfl fun t _ => mul_assoc _ _ _

theorem proj_up (x : σ → δ → ℝ) (w : δ → κ → ℝ) : proj (up x) (up w) = up (projR x w) := by
  funext s k
  simp only [proj, up, projR, coe_sum, EReal.coe_mul]

/-- The layer with the small matrix first, of coerced real matrices, is the coercion of the real layer. -/
theorem layerK_up (x : σ → δ → ℝ) (wq wk : δ → κ → ℝ) (wv : δ → ν → ℝ) (wp : ν → δ → ℝ) :
    layerK (up x) (up wq) (up wk) (up wv) (up wp) = up (layerReal x wq wk wv wp) := by
  funext s d
  simp only [layerK, ctxK, proj_up]
  simp only [up, layerReal, coe_sum, EReal.coe_mul, EReal.coe_add]

/-- The layer with the scores first, of coerced real matrices, is the coercion of the SAME real layer: over the reals
    the two groupings agree (`assoc_real`). -/
theorem layerR_up (x : σ → δ → ℝ) (wq wk : δ → κ → ℝ) (wv : δ → ν → ℝ) (wp : ν → δ → ℝ) :
    layerR (up x) (up wq) (up wk) (up wv) (up wp) = up (layerReal x wq wk wv wp) := by
  funext s d
  simp only [layerR, ctxR, proj_up]
  simp only [up, layerReal, ← assoc_real, coe_sum, EReal.coe_mul, EReal.coe_add]

/-! ## Four layers -/

/-- Four layers, each with its own weights, of matrices whose entries are all real numbers: grouping every layer
    either way gives the same matrix. The real witnesses are chosen once; each layer of coerced matrices is a coerced
    matrix again, so the next layer's hypothesis is met without another appeal to finiteness. -/
theorem four_layers (x : σ → δ → EReal) (wq wk : Fin 4 → δ → κ → EReal) (wv : Fin 4 → δ → ν → EReal) (wp : Fin 4 → ν → δ → EReal)
    (hx : ∀ a b, ∃ r : ℝ, x a b = (r : EReal)) (hq : ∀ l a b, ∃ r : ℝ, wq l a b = (r : EReal))
    (hk : ∀ l a b, ∃ r : ℝ, wk l a b = (r : EReal)) (hv : ∀ l a b, ∃ r : ℝ, wv l a b = (r : EReal))
    (hp : ∀ l a b, ∃ r : ℝ, wp l a b = (r : EReal)) :
    stackK x wq wk wv wp = stackR x wq wk wv wp := by
  unfold stackK stackR
  obtain ⟨x', rfl⟩ := exists_up x hx
  have eq : ∀ l, ∃ g, wq l = up g := fun l => exists_up (wq l) (hq l)
  have ek : ∀ l, ∃ g, wk l = up g := fun l => exists_up (wk l) (hk l)
  have ev : ∀ l, ∃ g, wv l = up g := fun l => exists_up (wv l) (hv l)
  have ep : ∀ l, ∃ g, wp l = up g := fun l => exists_up (wp l) (hp l)
  choose q' hq' using eq
  choose k' hk' using ek
  choose v' hv' using ev
  choose p' hp' using ep
  simp only [hq', hk', hv', hp', layerK_up, layerR_up]

end Cert.LinAttn

end
-- ==== Proof.MatView.lean ====
/-
  Arrays read as matrices. A rank-2 array is the matrix of its entries (`mat`); member g of a stack [G,m,n] is the
  matrix of the entries (g, ·, ·) (`slab`). Three layout steps every pipelined block goes through, read at an entry:
  a [1,m,n] block viewed as [m,n] reads (a,b) at (0,a,b) (`dropUnit_apply`), an [m,n] value stored as a [1,m,n] block
  reads (z,a,b) at (a,b) (`addUnit_apply`), and the load of the [1,m,n] slab at offset (l,0,0) of a [G,m,n] buffer
  reads (z,a,b) at (l,a,b) (`ld_slab`); likewise the host's slice at offset (l,0,0) (`slice_slab`).
-/
import Idealize.ShloMosaic.PureOps.Ideal
import Idealize.ShloMosaic.Lib.ValueIdx
import Idealize.ShloMosaic.Lib.Pipeline.Value

noncomputable section

namespace Cert.MatView

open Idealize.ShloMosaic Idealize.ShloMosaic.ValueIdx

variable {G m n : Nat}

/-- A rank-2 array of ideal values (extended reals, whatever the float format) as the matrix of its entries. -/
def mat (A : (⟨2, ![m, n]⟩ : Shape).Idx → EReal) : Fin m → Fin n → EReal := fun a b => A (ix2 a b)

/-- Member `g` of a stack of matrices, as the matrix of its entries. -/
def slab (A : (⟨3, ![G, m, n]⟩ : Shape).Idx → EReal) (g : Fin G) : Fin m → Fin n → EReal := fun a b => A (ix3 g a b)

/-- A [1,m,n] block viewed as [m,n]: entry (a,b) is the block's (0,a,b). -/
theorem dropUnit_apply {α : Type} (v : (⟨3, ![1, m, n]⟩ : Shape).Idx → α)
    (h : (⟨3, ![1, m, n]⟩ : Shape).ShapeCasts ⟨2, ![m, n]⟩) (a : Fin m) (b : Fin n) :
    shapeCast ⟨2, ![m, n]⟩ v h (ix2 a b) = v (ix3 (0 : Fin 1) a b) :=
  shapeCast_apply v h (ix2 a b) (ix3 (0 : Fin 1) a b) (by
    rw [Shape.rowMajor_val_three, Shape.rowMajor_val_two]
    show (0 * m + a.val) * n + b.val = a.val * n + b.val
    rw [Nat.zero_mul, Nat.zero_add])

/-- An [m,n] value stored as a [1,m,n] block: entry (z,a,b) is the value's (a,b). -/
theorem addUnit_apply {α : Type} (v : (⟨2, ![m, n]⟩ : Shape).Idx → α)
    (h : (⟨2, ![m, n]⟩ : Shape).ShapeCasts ⟨3, ![1, m, n]⟩) (z : Fin 1) (a : Fin m) (b : Fin n) :
    shapeCast ⟨3, ![1, m, n]⟩ v h (ix3 z a b) = v (ix2 a b) :=
  shapeCast_apply v h (ix3 z a b) (ix2 a b) (by
    rw [Shape.rowMajor_val_three, Shape.rowMajor_val_two]
    show a.val * n + b.val = (z.val * m + a.val) * n + b.val
    have hz : z.val = 0 := by have := z.isLt; omega
    rw [hz, Nat.zero_mul, Nat.zero_add])

/-- The load of the [1,m,n] slab at offset (l,0,0) of a [G,m,n] buffer: entry (z,a,b) is the buffer's (l,a,b). -/
theorem ld_slab {Val : EltTy → Type} {e : EltTy} (X : (⟨3, ![G, m, n]⟩ : Shape).Idx → Val e) (l : Nat) (hl : l < G)
    (inb : ∀ a, (![l, 0, 0] : Fin 3 → Nat) a + (⟨3, ![1, m, n]⟩ : Shape).size a ≤ (⟨3, ![G, m, n]⟩ : Shape).size a)
    (z : Fin 1) (a : Fin m) (b : Fin n) :
    View.ld X (Rect.unit (s := ⟨3, ![G, m, n]⟩) ![l, 0, 0] (⟨3, ![1, m, n]⟩ : Shape).size inb) (ix3 z a b) = X (ix3 ⟨l, hl⟩ a b) := by
  show X ((Rect.unit (s := ⟨3, ![G, m, n]⟩) ![l, 0, 0] (⟨3, ![1, m, n]⟩ : Shape).size inb).idx (ix3 z a b)) = X (ix3 ⟨l, hl⟩ a b)
  refine congrArg X (funext fun ax => Fin.ext ?_)
  have hz : z.val = 0 := by have := z.isLt; omega
  match ax with
  | ⟨0, _⟩ => show l + 1 * z.val = l; omega
  | ⟨1, _⟩ => show 0 + 1 * a.val = a.val; omega
  | ⟨2, _⟩ => show 0 + 1 * b.val = b.val; omega

/-- The host's slice [l:l+1, 0:m, 0:n] of a [G,m,n] array: entry (z,a,b) is the array's (l,a,b). -/
theorem slice_slab {α : Type} (X : (⟨3, ![G, m, n]⟩ : Shape).Idx → α) (l : Nat) (hl : l < G)
    (h : (⟨3, ![G, m, n]⟩ : Shape).Slices ![l, 0, 0] ⟨3, ![1, m, n]⟩) (z : Fin 1) (a : Fin m) (b : Fin n) :
    extractStridedSlice ⟨3, ![1, m, n]⟩ ![l, 0, 0] X h (ix3 z a b) = X (ix3 ⟨l, hl⟩ a b) := by
  refine extractStridedSlice_apply ![l, 0, 0] X h (ix3 z a b) (ix3 ⟨l, hl⟩ a b) fun ax => ?_
  have hz : z.val = 0 := by have := z.isLt; omega
  match ax with
  | ⟨0, _⟩ => show l = l + z.val; omega
  | ⟨1, _⟩ => show a.val = 0 + a.val; omega
  | ⟨2, _⟩ => show b.val = 0 + b.val; omega

end Cert.MatView

end
-- ==== Proof.Spec.lean ====
/-
  The specification: the result as ONE function of the five argument arrays.

  Entry (b, s, d) of the result is the (s, d) entry of four layers of linear attention (Proof/LinAttn.lean) applied to
  member b of x : [4,4096,256], layer l with member l of each stacked weight array (Wq, Wk, Wv : [4,256,64], Wp :
  [4,64,256]). `resultK` groups every layer's context as Q·(KᵀV), `resultR` as (QKᵀ)·V. When every entry of every
  argument is a real number the two are the same array (`resultK_eq_resultR`, from `LinAttn.four_layers`).
-/
import proofs.«168384_j71511205478734_2_alg».proof.Proof.LinAttn
import proofs.«168384_j71511205478734_2_alg».proof.Proof.MatView

noncomputable section

namespace Cert.Spec

open Idealize.ShloMosaic Idealize.ShloMosaic.ValueIdx Cert.LinAttn Cert.MatView

/-- The result, every context with the small matrix KᵀV first. -/
def resultK (X : (⟨3, ![4, 4096, 256]⟩ : Shape).Idx → EReal) (Wq Wk Wv : (⟨3, ![4, 256, 64]⟩ : Shape).Idx → EReal)
    (Wp : (⟨3, ![4, 64, 256]⟩ : Shape).Idx → EReal) : (⟨3, ![4, 4096, 256]⟩ : Shape).Idx → EReal :=
  fun i => stackK (slab X (i 0)) (slab Wq) (slab Wk) (slab Wv) (slab Wp) (i 1) (i 2)

/-- The result, every context with the scores QKᵀ first. -/
def resultR (X : (⟨3, ![4, 4096, 256]⟩ : Shape).Idx → EReal) (Wq Wk Wv : (⟨3, ![4, 256, 64]⟩ : Shape).Idx → EReal)
    (Wp : (⟨3, ![4, 64, 256]⟩ : Shape).Idx → EReal) : (⟨3, ![4, 4096, 256]⟩ : Shape).Idx → EReal :=
  fun i => stackR (slab X (i 0)) (slab Wq) (slab Wk) (slab Wv) (slab Wp) (i 1) (i 2)

theorem resultK_apply (X : (⟨3, ![4, 4096, 256]⟩ : Shape).Idx → EReal) (Wq Wk Wv : (⟨3, ![4, 256, 64]⟩ : Shape).Idx → EReal)
    (Wp : (⟨3, ![4, 64, 256]⟩ : Shape).Idx → EReal) (b : Fin 4) (s : Fin 4096) (d : Fin 256) :
    resultK X Wq Wk Wv Wp (ix3 b s d) = stackK (slab X b) (slab Wq) (slab Wk) (slab Wv) (slab Wp) s d := rfl

theorem resultR_apply (X : (⟨3, ![4, 4096, 256]⟩ : Shape).Idx → EReal) (Wq Wk Wv : (⟨3, ![4, 256, 64]⟩ : Shape).Idx → EReal)
    (Wp : (⟨3, ![4, 64, 256]⟩ : Shape).Idx → EReal) (b : Fin 4) (s : Fin 4096) (d : Fin 256) :
    resultR X Wq Wk Wv Wp (ix3 b s d) = stackR (slab X b) (slab Wq) (slab Wk) (slab Wv) (slab Wp) s d := rfl

/-- Two arrays of the result's shape that agree at every (b, s, d) are equal. -/
theorem ext3 {α : Type} {f g : (⟨3, ![4, 4096, 256]⟩ : Shape).Idx → α}
    (h : ∀ (b : Fin 4) (s : Fin 4096) (d : Fin 256), f (ix3 b s d) = g (ix3 b s d)) : f = g :=
  funext fun i => (congrArg f (eq_ix3 i)).trans ((h (i 0) (i 1) (i 2)).trans (congrArg g (eq_ix3 i)).symm)

/-- With real entries everywhere the two groupings give the same result. -/
theorem resultK_eq_resultR (X : (⟨3, ![4, 4096, 256]⟩ : Shape).Idx → EReal) (Wq Wk Wv : (⟨3, ![4, 256, 64]⟩ : Shape).Idx → EReal)
    (Wp : (⟨3, ![4, 64, 256]⟩ : Shape).Idx → EReal)
    (hX : ∀ i, ∃ r : ℝ, X i = (r : EReal)) (hq : ∀ i, ∃ r : ℝ, Wq i = (r : EReal)) (hk : ∀ i, ∃ r : ℝ, Wk i = (r : EReal))
    (hv : ∀ i, ∃ r : ℝ, Wv i = (r : EReal)) (hp : ∀ i, ∃ r : ℝ, Wp i = (r : EReal)) :
    resultK X Wq Wk Wv Wp = resultR X Wq Wk Wv Wp :=
  funext fun i => congrFun (congrFun (four_layers (slab X (i 0)) (slab Wq) (slab Wk) (slab Wv) (slab Wp)
    (fun _ _ => hX _) (fun _ _ _ => hq _) (fun _ _ _ => hk _) (fun _ _ _ => hv _) (fun _ _ _ => hp _)) (i 1)) (i 2)

end Cert.Spec

end
-- ==== Proof.DotRead.lean ====
/-
  Matrix products read at one entry, at the ideal values, for the four arrangements of axes this certificate meets
  beside the library's stack-by-stack product ([G,m,k]·[G,k,n], Lib/StackMember.lean `dotGeneral_stack_apply`):

    the vector unit's product into a zero accumulator
      [m,k]·[k,n] → [m,n]     entry (a,b) = Σ_c A[a,c]·B[c,b]                       (`matmul_rows_cols`)
      [k,m]ᵀ·[k,n] → [m,n]    entry (a,b) = Σ_c A[c,a]·B[c,b]   (both contracted on their rows)  (`matmul_rows_rows`)
    the host's dot_general
      [G,m,k]·[k,n] → [G,m,n]     entry (g,a,b) = Σ_c A[g,a,c]·B[c,b]   (one weight matrix for every member of the stack)  (`hostDot_stack_weight`)
      [G,m,k]·[G,n,k]ᵀ → [G,m,n]  entry (g,a,b) = Σ_c A[g,a,c]·B[g,b,c] (member by member, both contracted on their last axis)  (`hostDot_stack_lastLast`)

  Each is the library's sum over the contraction index (PureOps/Ideal/Laws.lean) re-indexed by the one contracted
  coordinate (Lib/ValueIdx.lean `contrEquiv1`), with the two operand indices computed coordinate by coordinate.
  The records are literal lists with an arbitrary well-formedness proof, so a program's own record, which is such a
  literal, is an instance.
-/
import Idealize.ShloMosaic.PureOps.Ideal.Laws
import Idealize.ShloMosaic.Lib.ValueIdx
import Idealize.ShloMosaic.Lib.StackMember

noncomputable section

open scoped BigOperators

namespace Cert.DotRead

open Idealize.ShloMosaic Idealize.ShloMosaic.ValueIdx

variable {G m n k : Nat} {φ₁ φ₂ : FTy}

/-- The vector unit's [m,k]·[k,n] into the zero splat, at entry (a,b): Σ_c A[a,c]·B[c,b]. -/
theorem matmul_rows_cols
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The vector unit's [k,m]ᵀ·[k,n] into the zero splat — both operands contracted on their ROW axis — at entry (a,b):
    Σ_c A[c,a]·B[c,b]. -/
theorem matmul_rows_rows
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    matmul (⟨[0], [0], [1], [1], [], [], w⟩ : DotDims _ _ _) prec A B (constant (F := Ideal) ⟨2, ![m, n]⟩ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The host's [G,m,k]·[k,n] — one weight matrix applied to every member of the stack — at entry (g,a,b):
    Σ_c A[g,a,c]·B[c,b]. -/
theorem hostDot_stack_weight
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r2 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r2]

/-- The host's [G,m,k]·[G,n,k]ᵀ, member by member, both contracted on their LAST axis, at entry (g,a,b):
    Σ_c A[g,a,c]·B[g,b,c]. -/
theorem hostDot_stack_lastLast
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Cert.DotRead

end
-- ==== Proof.KernelLayer.lean ====
/-
  One layer of the kernel body is `LinAttn.layerK` of matrix views, and the whole body is `LinAttn.stackK`.

  In the vector unit's spelling a layer is six matrix products into zero accumulators and an addition; the changes of float
  format on the way into the products are the identity at the ideal values. Read at an entry (Proof/DotRead.lean) the
  three projections are Σ_e x[s,e]·W[e,k], the small matrix KᵀV is Σ_t K[t,k]·V[t,v] (both operands contracted on their
  rows), the context is Σ_k Q[s,k]·(KᵀV)[k,v], and the update is Σ_v ctx[s,v]·Wp[v,d]: `ctx_core`, `finish_core`,
  `layer_core`, over variables for every operand so that they serve all four layers however the body's text is cut.
  The weights of layer l are the slab l of the stacked weight buffers (a load at offset (l,0,0), then the unit axis dropped),
  the layer input of layer 0 is the [1,4096,256] block with its unit axis dropped, and the result is stored with the unit
  axis added back: `body_eq` reads what the body leaves in the output buffer, at entry (z,s,d), as the (s,d) entry of
  four layers of member 0 of the input block with the four slabs of each weight buffer.
-/
import proofs.«168384_j71511205478734_2_alg».proof.Proof.Gen.KernelIdeal.Frame
import proofs.«168384_j71511205478734_2_alg».proof.Proof.LinAttn
import proofs.«168384_j71511205478734_2_alg».proof.Proof.DotRead
import proofs.«168384_j71511205478734_2_alg».proof.Proof.MatView

noncomputable section

open scoped BigOperators

namespace Cert.KernelSide

open Cert.KernelIdeal Cert.KernelIdeal.Gen Idealize.ShloMosaic Idealize.ShloMosaic.ValueIdx Cert.LinAttn Cert.DotRead Cert.MatView

/-! ## The four products of a layer at an entry -/

/-- A projection x·W ([4096,256]·[256,64]) at entry (a,b). -/
theorem xw_apply {φ₁ φ₂ : FTy} (prec : Option ContractPrecision) (A : FVec Ideal S4096x256 φ₁) (B : FVec Ideal S256x64 φ₂)
    (a : Fin 4096) (b : Fin 64) :
    matmul dot_S4096x256_S256x64_S4096x64_1_0_0_1_n_n prec A B (constant (F := Ideal) S4096x64 .f32 0x00000000#32) (ix2 a b)
      = ∑ c : Fin 256, A (ix2 a c) * B (ix2 c b) :=
  matmul_rows_cols dot_S4096x256_S256x64_S4096x64_1_0_0_1_n_n.wf prec A B a b

/-- The small matrix KᵀV ([4096,64]ᵀ·[4096,64], both contracted on the rows) at entry (a,b). -/
theorem kv_apply {φ₁ φ₂ : FTy} (prec : Option ContractPrecision) (A : FVec Ideal S4096x64 φ₁) (B : FVec Ideal S4096x64 φ₂)
    (a : Fin 64) (b : Fin 64) :
    matmul dot_S4096x64_S4096x64_S64x64_0_0_1_1_n_n prec A B (constant (F := Ideal) S64x64 .f32 0x00000000#32) (ix2 a b)
      = ∑ c : Fin 4096, A (ix2 c a) * B (ix2 c b) :=
  matmul_rows_rows dot_S4096x64_S4096x64_S64x64_0_0_1_1_n_n.wf prec A B a b

/-- The context Q·(KᵀV) ([4096,64]·[64,64]) at entry (a,b). -/
theorem qkv_apply {φ₁ φ₂ : FTy} (prec : Option ContractPrecision) (A : FVec Ideal S4096x64 φ₁) (B : FVec Ideal S64x64 φ₂)
    (a : Fin 4096) (b : Fin 64) :
    matmul dot_S4096x64_S64x64_S4096x64_1_0_0_1_n_n prec A B (constant (F := Ideal) S4096x64 .f32 0x00000000#32) (ix2 a b)
      = ∑ c : Fin 64, A (ix2 a c) * B (ix2 c b) :=
  matmul_rows_cols dot_S4096x64_S64x64_S4096x64_1_0_0_1_n_n.wf prec A B a b

/-- The update ctx·Wp ([4096,64]·[64,256]) at entry (a,b). -/
theorem cp_apply {φ₁ φ₂ : FTy} (prec : Option ContractPrecision) (A : FVec Ideal S4096x64 φ₁) (B : FVec Ideal S64x256 φ₂)
    (a : Fin 4096) (b : Fin 256) :
    matmul dot_S4096x64_S64x256_S4096x256_1_0_0_1_n_n prec A B (constant (F := Ideal) S4096x256 .f32 0x00000000#32) (ix2 a b)
      = ∑ c : Fin 64, A (ix2 a c) * B (ix2 c b) :=
  matmul_rows_cols dot_S4096x64_S64x256_S4096x256_1_0_0_1_n_n.wf prec A B a b

/-! ## A layer over variables -/

/-- The context of a layer: whatever the layer input's matrix `X` is. -/
theorem ctx_core {φx φq φk φv : FTy} (xb : FVec Ideal S4096x256 φx) (wq : FVec Ideal S256x64 φq) (wk : FVec Ideal S256x64 φk)
    (wv : FVec Ideal S256x64 φv) (X : Fin 4096 → Fin 256 → EReal) (hb : mat xb = X) :
    mat (truncf .bf16 (matmul dot_S4096x64_S64x64_S4096x64_1_0_0_1_n_n (some .fp32)
        (matmul dot_S4096x256_S256x64_S4096x64_1_0_0_1_n_n none xb wq (constant (F := Ideal) S4096x64 .f32 0x00000000#32))
        (matmul dot_S4096x64_S4096x64_S64x64_0_0_1_1_n_n (some .fp32)
          (matmul dot_S4096x256_S256x64_S4096x64_1_0_0_1_n_n none xb wk (constant (F := Ideal) S4096x64 .f32 0x00000000#32))
          (matmul dot_S4096x256_S256x64_S4096x64_1_0_0_1_n_n none xb wv (constant (F := Ideal) S4096x64 .f32 0x00000000#32))
          (constant (F := Ideal) S64x64 .f32 0x00000000#32))
        (constant (F := Ideal) S4096x64 .f32 0x00000000#32)) bitsLt_bf16_f32)
      = ctxK X (mat wq) (mat wk) (mat wv) := by
  have eb : ∀ a e, xb (ix2 a e) = X a e := fun a e => congrFun (congrFun hb a) e
  funext a b
  simp only [mat, ctxK, proj, truncf_apply, qkv_apply, xw_apply, kv_apply, eb]

/-- The residual step of a layer, from the layer input's matrix and the context's. -/
theorem finish_core {φc φp : FTy} (xr : FVec Ideal S4096x256 .f32) (ctx : FVec Ideal S4096x64 φc) (wp : FVec Ideal S64x256 φp)
    (X : Fin 4096 → Fin 256 → EReal) (Q K : Fin 256 → Fin 64 → EReal) (V : Fin 256 → Fin 64 → EReal)
    (hr : mat xr = X) (hc : mat ctx = ctxK X Q K V) :
    mat (addf xr (matmul dot_S4096x64_S64x256_S4096x256_1_0_0_1_n_n none ctx wp (constant (F := Ideal) S4096x256 .f32 0x00000000#32)))
      = layerK X Q K V (mat wp) := by
  have er : ∀ a b, xr (ix2 a b) = X a b := fun a b => congrFun (congrFun hr a) b
  have ec : ∀ a v, ctx (ix2 a v) = ctxK X Q K V a v := fun a v => congrFun (congrFun hc a) v
  funext a b
  simp only [mat, layerK, addf_apply, cp_apply, er, ec]

/-- A whole layer. `xr` is the layer input as the residual adds it, `xb` the same matrix as the projections read it. -/
theorem layer_core {φx φq φk φv φp : FTy} (xr : FVec Ideal S4096x256 .f32) (xb : FVec Ideal S4096x256 φx) (wq : FVec Ideal S256x64 φq)
    (wk : FVec Ideal S256x64 φk) (wv : FVec Ideal S256x64 φv) (wp : FVec Ideal S64x256 φp)
    (X : Fin 4096 → Fin 256 → EReal) (hr : mat xr = X) (hb : mat xb = X) :
    mat (addf xr (matmul dot_S4096x64_S64x256_S4096x256_1_0_0_1_n_n none
        (truncf .bf16 (matmul dot_S4096x64_S64x64_S4096x64_1_0_0_1_n_n (some .fp32)
          (matmul dot_S4096x256_S256x64_S4096x64_1_0_0_1_n_n none xb wq (constant (F := Ideal) S4096x64 .f32 0x00000000#32))
          (matmul dot_S4096x64_S4096x64_S64x64_0_0_1_1_n_n (some .fp32)
            (matmul dot_S4096x256_S256x64_S4096x64_1_0_0_1_n_n none xb wk (constant (F := Ideal) S4096x64 .f32 0x00000000#32))
            (matmul dot_S4096x256_S256x64_S4096x64_1_0_0_1_n_n none xb wv (constant (F := Ideal) S4096x64 .f32 0x00000000#32))
            (constant (F := Ideal) S64x64 .f32 0x00000000#32))
          (constant (F := Ideal) S4096x64 .f32 0x00000000#32)) bitsLt_bf16_f32)
        wp (constant (F := Ideal) S4096x256 .f32 0x00000000#32)))
      = layerK X (mat wq) (mat wk) (mat wv) (mat wp) :=
  finish_core xr _ wp X (mat wq) (mat wk) (mat wv) hr (ctx_core xb wq wk wv X hb)

/-! ## The body's payloads -/

/-- Layer 0, from the loaded blocks: the input block and the four weight slabs with their unit axes dropped. -/
theorem pay2_mat (v0 : Vec Ideal S1x4096x256 .f32) (v3 v6 v9 : Vec Ideal S1x256x64 .f32) (v12 : Vec Ideal S1x64x256 .f32) :
    mat (k0_pay2 v0 v3 v6 v9 v12)
      = layerK (mat (shapeCast S4096x256 v0 shapeCasts_S1x4096x256_S4096x256)) (mat (shapeCast S256x64 v3 shapeCasts_S1x256x64_S256x64))
          (mat (shapeCast S256x64 v6 shapeCasts_S1x256x64_S256x64)) (mat (shapeCast S256x64 v9 shapeCasts_S1x256x64_S256x64))
          (mat (shapeCast S64x256 v12 shapeCasts_S1x64x256_S64x256)) :=
  layer_core (shapeCast S4096x256 v0 shapeCasts_S1x4096x256_S4096x256)
    (truncf .bf16 (shapeCast S4096x256 v0 shapeCasts_S1x4096x256_S4096x256) bitsLt_bf16_f32)
    (truncf .bf16 (shapeCast S256x64 v3 shapeCasts_S1x256x64_S256x64) bitsLt_bf16_f32)
    (truncf .bf16 (shapeCast S256x64 v6 shapeCasts_S1x256x64_S256x64) bitsLt_bf16_f32)
    (truncf .bf16 (shapeCast S256x64 v9 shapeCasts_S1x256x64_S256x64) bitsLt_bf16_f32)
    (truncf .bf16 (shapeCast S64x256 v12 shapeCasts_S1x64x256_S64x256) bitsLt_bf16_f32) _ rfl rfl

/-- Layer 1: its input arrives twice (as the residual adds it and as the projections read it), two weights already
    with their unit axes dropped. -/
theorem pay6_mat (v22 : FVec Ideal S4096x256 .f32) (v23 : FVec Ideal S4096x256 .bf16) (v26 v29 : FVec Ideal S256x64 .bf16)
    (v30 : Vec Ideal S1x256x64 .f32) (v33 : Vec Ideal S1x64x256 .f32) (X : Fin 4096 → Fin 256 → EReal)
    (h22 : mat v22 = X) (h23 : mat v23 = X) :
    mat (k0_pay6 v22 v23 v26 v29 v30 v33)
      = layerK X (mat v26) (mat v29) (mat (shapeCast S256x64 v30 shapeCasts_S1x256x64_S256x64))
          (mat (shapeCast S64x256 v33 shapeCasts_S1x64x256_S64x256)) :=
  layer_core v22 v23 v26 v29 (truncf .bf16 (shapeCast S256x64 v30 shapeCasts_S1x256x64_S256x64) bitsLt_bf16_f32)
    (truncf .bf16 (shapeCast S64x256 v33 shapeCasts_S1x64x256_S64x256) bitsLt_bf16_f32) X h22 h23

/-- The context of layer 2, whose input is layer 1's result. -/
theorem pay8_mat (v22 : FVec Ideal S4096x256 .f32) (v23 : FVec Ideal S4096x256 .bf16) (v26 v29 : FVec Ideal S256x64 .bf16)
    (v30 : Vec Ideal S1x256x64 .f32) (v33 : Vec Ideal S1x64x256 .f32) (v45 v48 v51 : Vec Ideal S1x256x64 .f32)
    (X : Fin 4096 → Fin 256 → EReal) (h : mat (k0_pay6 v22 v23 v26 v29 v30 v33) = X) :
    mat (k0_pay8 v22 v23 v26 v29 v30 v33 v45 v48 v51)
      = ctxK X (mat (shapeCast S256x64 v45 shapeCasts_S1x256x64_S256x64)) (mat (shapeCast S256x64 v48 shapeCasts_S1x256x64_S256x64))
          (mat (shapeCast S256x64 v51 shapeCasts_S1x256x64_S256x64)) :=
  ctx_core (truncf .bf16 (k0_pay6 v22 v23 v26 v29 v30 v33) bitsLt_bf16_f32)
    (truncf .bf16 (shapeCast S256x64 v45 shapeCasts_S1x256x64_S256x64) bitsLt_bf16_f32)
    (truncf .bf16 (shapeCast S256x64 v48 shapeCasts_S1x256x64_S256x64) bitsLt_bf16_f32)
    (truncf .bf16 (shapeCast S256x64 v51 shapeCasts_S1x256x64_S256x64) bitsLt_bf16_f32) X h

/-- The stored value: layer 2's residual step from its input and its context, then layer 3, stored with the unit axis
    added back. -/
theorem pay1_apply (v43 : FVec Ideal S4096x256 .f32) (v56 : FVec Ideal S64x256 .bf16) (v62 : FVec Ideal S4096x64 .bf16)
    (v66 v69 v72 : Vec Ideal S1x256x64 .f32) (v75 : Vec Ideal S1x64x256 .f32)
    (X : Fin 4096 → Fin 256 → EReal) (Q K V : Fin 256 → Fin 64 → EReal) (h43 : mat v43 = X) (h62 : mat v62 = ctxK X Q K V)
    (z : Fin 1) (s : Fin 4096) (d : Fin 256) :
    k0_pay1 v43 v56 v62 v66 v69 v72 v75 (ix3 z s d)
      = layerK (layerK X Q K V (mat v56)) (mat (shapeCast S256x64 v66 shapeCasts_S1x256x64_S256x64))
          (mat (shapeCast S256x64 v69 shapeCasts_S1x256x64_S256x64)) (mat (shapeCast S256x64 v72 shapeCasts_S1x256x64_S256x64))
          (mat (shapeCast S64x256 v75 shapeCasts_S1x64x256_S64x256)) s d := by
  have h64 := finish_core v43 v62 v56 X Q K V h43 h62
  have hL := layer_core _ (truncf .bf16 (addf v43 (matmul dot_S4096x64_S64x256_S4096x256_1_0_0_1_n_n none v62 v56
      (constant (F := Ideal) S4096x256 .f32 0x00000000#32))) bitsLt_bf16_f32)
    (truncf .bf16 (shapeCast S256x64 v66 shapeCasts_S1x256x64_S256x64) bitsLt_bf16_f32)
    (truncf .bf16 (shapeCast S256x64 v69 shapeCasts_S1x256x64_S256x64) bitsLt_bf16_f32)
    (truncf .bf16 (shapeCast S256x64 v72 shapeCasts_S1x256x64_S256x64) bitsLt_bf16_f32)
    (truncf .bf16 (shapeCast S64x256 v75 shapeCasts_S1x64x256_S64x256) bitsLt_bf16_f32) _ h64 h64
  unfold k0_pay1
  refine (addUnit_apply _ shapeCasts_S4096x256_S1x4096x256 z s d).trans ?_
  exact congrFun (congrFun hL s) d

/-! ## The loaded blocks as slabs -/

/-- The weight slab l of a [4,256,64] buffer, loaded and with its unit axis dropped, is member l of the buffer. -/
theorem wslab (x : Vec Ideal S4x256x64 .f32) (l : Nat) (hl : l < 4)
    (inb : ∀ a, (![l, 0, 0] : Fin 3 → Nat) a + S1x256x64.size a ≤ S4x256x64.size a) :
    mat (shapeCast S256x64 (View.ld x (Rect.unit (s := S4x256x64) ![l, 0, 0] S1x256x64.size inb)) shapeCasts_S1x256x64_S256x64)
      = slab x ⟨l, hl⟩ :=
  funext fun a => funext fun b => (dropUnit_apply _ _ a b).trans (ld_slab x l hl inb 0 a b)

/-- The same for the [4,64,256] buffer of the output projections. -/
theorem pslab (x : Vec Ideal S4x64x256 .f32) (l : Nat) (hl : l < 4)
    (inb : ∀ a, (![l, 0, 0] : Fin 3 → Nat) a + S1x64x256.size a ≤ S4x64x256.size a) :
    mat (shapeCast S64x256 (View.ld x (Rect.unit (s := S4x64x256) ![l, 0, 0] S1x64x256.size inb)) shapeCasts_S1x64x256_S64x256)
      = slab x ⟨l, hl⟩ :=
  funext fun a => funext fun b => (dropUnit_apply _ _ a b).trans (ld_slab x l hl inb 0 a b)

/-- The [1,4096,256] input block, loaded whole and with its unit axis dropped, is its one member. -/
theorem xslab (x : Vec Ideal S1x4096x256 .f32) :
    mat (shapeCast S4096x256 (View.ld x r0_0) shapeCasts_S1x4096x256_S4096x256) = slab x 0 :=
  funext fun a => funext fun b => (dropUnit_apply _ _ a b).trans (ld_slab x 0 Nat.one_pos inb_S1x4096x256_S1x4096x256_0_0_0 0 a b)

/-! ## The whole body -/

/-- What the body leaves in the output buffer, at entry (z,s,d): the (s,d) entry of four layers of the input block's one
    member, layer l with member l of each weight buffer. -/
theorem body_eq (x0 : Vec Ideal S1x4096x256 .f32) (x1 x2 x3 : Vec Ideal S4x256x64 .f32) (x4 : Vec Ideal S4x64x256 .f32)
    (z : Fin 1) (s : Fin 4096) (d : Fin 256) :
    out0_5 x0 x1 x2 x3 x4 (ix3 z s d) = stackK (slab x0 0) (slab x1) (slab x2) (slab x3) (slab x4) s d := by
  have hz : (![0, 0, 0] : Fin 3 → Nat) = fun _ => 0 := funext fun a => by match a with | ⟨0, _⟩ => rfl | ⟨1, _⟩ => rfl | ⟨2, _⟩ => rfl
  -- layer 0
  have h2 : mat (k0_pay2 (View.ld x0 r0_0) (View.ld x1 r0_1) (View.ld x2 r0_1) (View.ld x3 r0_1) (View.ld x4 r0_2))
      = layerK (slab x0 0) (slab x1 0) (slab x2 0) (slab x3 0) (slab x4 0) :=
    (pay2_mat _ _ _ _ _).trans (by
      rw [xslab x0, wslab x1 0 (by decide) inb_S4x256x64_S1x256x64_0_0_0, wslab x2 0 (by decide) inb_S4x256x64_S1x256x64_0_0_0,
        wslab x3 0 (by decide) inb_S4x256x64_S1x256x64_0_0_0, pslab x4 0 (by decide) inb_S4x64x256_S1x64x256_0_0_0]; rfl)
  -- layer 1
  have h6 : mat (k0_pay6 (k0_pay2 (View.ld x0 r0_0) (View.ld x1 r0_1) (View.ld x2 r0_1) (View.ld x3 r0_1) (View.ld x4 r0_2))
        (k0_pay3 (View.ld x0 r0_0) (View.ld x1 r0_1) (View.ld x2 r0_1) (View.ld x3 r0_1) (View.ld x4 r0_2))
        (k0_pay4 (View.ld x1 r0_3)) (k0_pay5 (View.ld x2 r0_3)) (View.ld x3 r0_3) (View.ld x4 r0_4))
      = layerK (layerK (slab x0 0) (slab x1 0) (slab x2 0) (slab x3 0) (slab x4 0)) (slab x1 1) (slab x2 1) (slab x3 1) (slab x4 1) :=
    (pay6_mat _ _ _ _ _ _ _ h2 h2).trans (by
      rw [wslab x3 1 (by decide) inb_S4x256x64_S1x256x64_1_0_0, pslab x4 1 (by decide) inb_S4x64x256_S1x64x256_1_0_0,
        show mat (k0_pay4 (View.ld x1 r0_3)) = slab x1 1 from wslab x1 1 (by decide) inb_S4x256x64_S1x256x64_1_0_0,
        show mat (k0_pay5 (View.ld x2 r0_3)) = slab x2 1 from wslab x2 1 (by decide) inb_S4x256x64_S1x256x64_1_0_0]; rfl)
  -- the context of layer 2
  have h8 := pay8_mat _ _ _ _ _ _ (View.ld x1 r0_5) (View.ld x2 r0_5) (View.ld x3 r0_5) _ h6
  rw [wslab x1 2 (by decide) inb_S4x256x64_S1x256x64_2_0_0, wslab x2 2 (by decide) inb_S4x256x64_S1x256x64_2_0_0,
    wslab x3 2 (by decide) inb_S4x256x64_S1x256x64_2_0_0] at h8
  -- layers 2 and 3, stored
  unfold out0_5
  rw [View.canon_unit_zero hz]
  refine (pay1_apply _ _ _ _ _ _ _ _ _ _ _ h6 h8 z s d).trans ?_
  rw [wslab x1 3 (by decide) inb_S4x256x64_S1x256x64_3_0_0, wslab x2 3 (by decide) inb_S4x256x64_S1x256x64_3_0_0,
    wslab x3 3 (by decide) inb_S4x256x64_S1x256x64_3_0_0, pslab x4 3 (by decide) inb_S4x64x256_S1x64x256_3_0_0,
    show mat (k0_pay7 (View.ld x4 r0_6)) = slab x4 2 from pslab x4 2 (by decide) inb_S4x64x256_S1x64x256_2_0_0]
  rfl

end Cert.KernelSide

end
-- ==== Proof.OutputBlocks.lean ====
import proofs.«168384_j71511205478734_2_alg».proof.Proof.Gen.KernelIdeal.Value
import Idealize.ShloMosaic.Lib.ValueIdx
import Idealize.ShloMosaic.Lib.Pipeline.Value

/-!
  The kernel's one output array from its blocks. The grid has four points and point `t` works on batch `t`: it
  reads block `(t, 0, 0)` of the first argument (one batch, all rows, all columns), reads the four weight arrays
  whole, and writes block `(t, 0, 0)` of the output. An element `(z, s, d)` of a block at block index `(q, 0, 0)`
  with block sizes `(1, 4096, 256)` sits in the array at `(q * 1 + z, 0 * 4096 + s, 0 * 256 + d) = (q, s, d)`.
  So if what point `t` leaves in the output block is, element by element, a function `Gf` of the array index
  `(t, s, d)`, then, the four blocks covering the array (batch `b` is covered by point `b`), the output array
  after the run is `Gf`.
-/

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ)

/-- The batch a grid point works on. -/
def pointBatch (t : Fin cfg0.N) : Fin 4 := ⟨t.val, by have h := t.isLt; have hN : cfg0.N = 4 := N_0; omega⟩

theorem pointBatch_val (t : Fin cfg0.N) : (pointBatch t).val = t.val := rfl

/-- The block index of each window at each grid point, decided over the four points: the first argument's window and
    the output's move along the batch axis with the point, the four weight windows stay at the origin. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The first argument's block at point `t` is batch `t` of the array. -/
theorem iblk0_apply (c : Dev nD) (t : Fin cfg0.N) (z : Fin 1) (s : Fin 4096) (d : Fin 256) :
    iblk m c 0 t (ix3 z s d)
      = (m ((c : Thread nD τ).loc main_arg0) : S4x4096x256.Idx → Elt F .f32) (ix3 (pointBatch t) s d) := by
  obtain ⟨⟨e0, e1, e2⟩, -⟩ := index_facts t
  unfold iblk
  rw [View.read_apply]
  show V m c main_arg0 _ = m (c.tc.loc main_arg0) _
  congr 1
  funext a
  apply Fin.ext
  match a with
  | ⟨0, _⟩ => show win0_0.index t (0 : Fin 3) * 1 + 1 * z.val = t.val; have hz := z.isLt; omega
  | ⟨1, _⟩ => show win0_0.index t (1 : Fin 3) * 4096 + 1 * s.val = s.val; omega
  | ⟨2, _⟩ => show win0_0.index t (2 : Fin 3) * 256 + 1 * d.val = d.val; omega

/-- The second argument's window holds the whole array at every point. -/
theorem iblk1_apply (c : Dev nD) (t : Fin cfg0.N) (l : Fin 4) (e : Fin 256) (k : Fin 64) :
    iblk m c 1 t (ix3 l e k)
      = (m ((c : Thread nD τ).loc main_arg1) : S4x256x64.Idx → Elt F .f32) (ix3 l e k) := by
  obtain ⟨e0, e1, e2⟩ := (index_facts t).2.1
  unfold iblk
  rw [View.read_apply]
  show V m c main_arg1 _ = m (c.tc.loc main_arg1) _
  congr 1
  funext a
  apply Fin.ext
  match a with
  | ⟨0, _⟩ => show win0_1.index t (0 : Fin 3) * 4 + 1 * l.val = l.val; omega
  | ⟨1, _⟩ => show win0_1.index t (1 : Fin 3) * 256 + 1 * e.val = e.val; omega
  | ⟨2, _⟩ => show win0_1.index t (2 : Fin 3) * 64 + 1 * k.val = k.val; omega

/-- The same as an equation of functions: the window's block is its whole array, at every point. -/
theorem iblk1_eq (c : Dev nD) (t : Fin cfg0.N) :
    (iblk m c 1 t : S4x256x64.Idx → Elt F .f32) = m ((c : Thread nD τ).loc main_arg1) := by
  funext j
  obtain ⟨l, e, k, rfl⟩ : ∃ (l : Fin 4) (e : Fin 256) (k : Fin 64), j = ix3 l e k := ⟨j 0, j 1, j 2, eq_ix3 j⟩
  exact iblk1_apply m c t l e k

/-- The third argument's window holds the whole array at every point. -/
theorem iblk2_apply (c : Dev nD) (t : Fin cfg0.N) (l : Fin 4) (e : Fin 256) (k : Fin 64) :
    iblk m c 2 t (ix3 l e k)
      = (m ((c : Thread nD τ).loc main_arg2) : S4x256x64.Idx → Elt F .f32) (ix3 l e k) := by
  obtain ⟨e0, e1, e2⟩ := (index_facts t).2.2.1
  unfold iblk
  rw [View.read_apply]
  show V m c main_arg2 _ = m (c.tc.loc main_arg2) _
  congr 1
  funext a
  apply Fin.ext
  match a with
  | ⟨0, _⟩ => show win0_2.index t (0 : Fin 3) * 4 + 1 * l.val = l.val; omega
  | ⟨1, _⟩ => show win0_2.index t (1 : Fin 3) * 256 + 1 * e.val = e.val; omega
  | ⟨2, _⟩ => show win0_2.index t (2 : Fin 3) * 64 + 1 * k.val = k.val; omega

/-- The same as an equation of functions: the window's block is its whole array, at every point. -/
theorem iblk2_eq (c : Dev nD) (t : Fin cfg0.N) :
    (iblk m c 2 t : S4x256x64.Idx → Elt F .f32) = m ((c : Thread nD τ).loc main_arg2) := by
  funext j
  obtain ⟨l, e, k, rfl⟩ : ∃ (l : Fin 4) (e : Fin 256) (k : Fin 64), j = ix3 l e k := ⟨j 0, j 1, j 2, eq_ix3 j⟩
  exact iblk2_apply m c t l e k

/-- The fourth argument's window holds the whole array at every point. -/
theorem iblk3_apply (c : Dev nD) (t : Fin cfg0.N) (l : Fin 4) (e : Fin 256) (k : Fin 64) :
    iblk m c 3 t (ix3 l e k)
      = (m ((c : Thread nD τ).loc main_arg3) : S4x256x64.Idx → Elt F .f32) (ix3 l e k) := by
  obtain ⟨e0, e1, e2⟩ := (index_facts t).2.2.2.1
  unfold iblk
  rw [View.read_apply]
  show V m c main_arg3 _ = m (c.tc.loc main_arg3) _
  congr 1
  funext a
  apply Fin.ext
  match a with
  | ⟨0, _⟩ => show win0_3.index t (0 : Fin 3) * 4 + 1 * l.val = l.val; omega
  | ⟨1, _⟩ => show win0_3.index t (1 : Fin 3) * 256 + 1 * e.val = e.val; omega
  | ⟨2, _⟩ => show win0_3.index t (2 : Fin 3) * 64 + 1 * k.val = k.val; omega

/-- The same as an equation of functions: the window's block is its whole array, at every point. -/
theorem iblk3_eq (c : Dev nD) (t : Fin cfg0.N) :
    (iblk m c 3 t : S4x256x64.Idx → Elt F .f32) = m ((c : Thread nD τ).loc main_arg3) := by
  funext j
  obtain ⟨l, e, k, rfl⟩ : ∃ (l : Fin 4) (e : Fin 256) (k : Fin 64), j = ix3 l e k := ⟨j 0, j 1, j 2, eq_ix3 j⟩
  exact iblk3_apply m c t l e k

/-- The fifth argument's window holds the whole array at every point. -/
theorem iblk4_apply (c : Dev nD) (t : Fin cfg0.N) (l : Fin 4) (v : Fin 64) (d : Fin 256) :
    iblk m c 4 t (ix3 l v d)
      = (m ((c : Thread nD τ).loc main_arg4) : S4x64x256.Idx → Elt F .f32) (ix3 l v d) := by
  obtain ⟨e0, e1, e2⟩ := (index_facts t).2.2.2.2.1
  unfold iblk
  rw [View.read_apply]
  show V m c main_arg4 _ = m (c.tc.loc main_arg4) _
  congr 1
  funext a
  apply Fin.ext
  match a with
  | ⟨0, _⟩ => show win0_4.index t (0 : Fin 3) * 4 + 1 * l.val = l.val; omega
  | ⟨1, _⟩ => show win0_4.index t (1 : Fin 3) * 64 + 1 * v.val = v.val; omega
  | ⟨2, _⟩ => show win0_4.index t (2 : Fin 3) * 256 + 1 * d.val = d.val; omega

/-- The same as an equation of functions: the window's block is its whole array, at every point. -/
theorem iblk4_eq (c : Dev nD) (t : Fin cfg0.N) :
    (iblk m c 4 t : S4x64x256.Idx → Elt F .f32) = m ((c : Thread nD τ).loc main_arg4) := by
  funext j
  obtain ⟨l, v, d, rfl⟩ : ∃ (l : Fin 4) (v : Fin 64) (d : Fin 256), j = ix3 l v d := ⟨j 0, j 1, j 2, eq_ix3 j⟩
  exact iblk4_apply m c t l v d

/-- WHAT POINT `t` WRITES BACK is block `t` of `Gf`, when the body's result at the point's input blocks is `Gf` at batch `t`,
    element by element: the element `(z, s, d)` of the block sits in the array at `(t, s, d)`. -/
theorem flushed_eq (c : Dev nD) (Gf : S4x4096x256.Idx → Elt F .f32)
    (hpay : ∀ (t : Fin cfg0.N) (z : Fin 1) (s : Fin 4096) (d : Fin 256),
      out0_5 (iblk m c 0 t) (iblk m c 1 t) (iblk m c 2 t) (iblk m c 3 t) (iblk m c 4 t) (ix3 z s d) = Gf (ix3 (pointBatch t) s d))
    (t : Fin cfg0.N) :
    (dats m 0 c).flushed 5 t = ((cfg0.win 5).blk t).view.read (Elt F) Gf := by
  rw [Value.flushed5]
  obtain ⟨e0, e1, e2⟩ := (index_facts t).2.2.2.2.2
  refine funext fun (j : S1x4096x256.Idx) => ?_
  obtain ⟨z, s, d, rfl⟩ : ∃ (z : Fin 1) (s : Fin 4096) (d : Fin 256), j = ix3 z s d := ⟨j 0, j 1, j 2, eq_ix3 j⟩
  rw [View.read_apply]
  show out0_5 (iblk m c 0 t) (iblk m c 1 t) (iblk m c 2 t) (iblk m c 3 t) (iblk m c 4 t) (ix3 z s d) = Gf _
  refine (hpay t z s d).trans (congrArg Gf ?_)
  funext a
  apply Fin.ext
  match a with
  | ⟨0, _⟩ => show t.val = win0_5.index t (0 : Fin 3) * 1 + 1 * z.val; have hz := z.isLt; omega
  | ⟨1, _⟩ => show s.val = win0_5.index t (1 : Fin 3) * 4096 + 1 * s.val; omega
  | ⟨2, _⟩ => show d.val = win0_5.index t (2 : Fin 3) * 256 + 1 * d.val; omega

/-- An index of the output array is in point `t`'s block iff each coordinate is in the block's range on its axis. -/
theorem mem_blk (t : Fin cfg0.N) (i : S4x4096x256.Idx) :
    i ∈ ((cfg0.win 5).blk t).view.set ↔ ∀ a : Fin 3, win0_5.index t a * S1x4096x256.size a ≤ (i a).val ∧ (i a).val < win0_5.index t a * S1x4096x256.size a + S1x4096x256.size a := by
  show i ∈ ((View.whole main_v0).slice (win0_5.rect t)).set ↔ _
  rw [View.set_slice_whole, Rect.mem_set_unit]
  exact Iff.rfl

/-- THE BLOCKS COVER THE ARRAY: the index `(b, s, d)` is in the block of point `b`. -/
theorem covered (i : S4x4096x256.Idx) :
    ∃ t : Fin cfg0.N, (cfg0.win 5).flush t = true ∧ i ∈ ((cfg0.win 5).blk t).view.set := by
  have hN : cfg0.N = 4 := N_0
  have hi0 : (i 0).val < 4 := (i 0).isLt
  have hi1 : (i 1).val < 4096 := (i 1).isLt
  have hi2 : (i 2).val < 256 := (i 2).isLt
  obtain ⟨t, ht⟩ : ∃ t : Fin cfg0.N, t.val = (i 0).val := ⟨⟨(i 0).val, by omega⟩, rfl⟩
  obtain ⟨e0, e1, e2⟩ := (index_facts t).2.2.2.2.2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 4096 ≤ (i 1).val ∧ (i 1).val < win0_5.index t (1 : Fin 3) * 4096 + 4096; omega
  | ⟨2, _⟩ => show win0_5.index t (2 : Fin 3) * 256 ≤ (i 2).val ∧ (i 2).val < win0_5.index t (2 : Fin 3) * 256 + 256; omega

/-- THE OUTPUT ARRAY AFTER THE RUN is `Gf`, for any float instance. -/
theorem arrAt_of_payload_any (c : Dev nD) (Gf : S4x4096x256.Idx → Elt F .f32)
    (hpay : ∀ (t : Fin cfg0.N) (z : Fin 1) (s : Fin 4096) (d : Fin 256),
      out0_5 (iblk m c 0 t) (iblk m c 1 t) (iblk m c 2 t) (iblk m c 3 t) (iblk m c 4 t) (ix3 z s d) = Gf (ix3 (pointBatch t) s d)) :
    (dats m 0 c).arrAt 5 cfg0.N = Gf :=
  (dats m 0 c).arrAt_eq_of_cover 5 Gf (fun t _ => flushed_eq m c Gf hpay t) covered

/-- THE OUTPUT ARRAY AFTER THE RUN is `Gf`, at the extended reals. -/
theorem arrAt_of_payload (m : (ℓ : Loc nD τ sig) → Buf (Elt Ideal) ℓ) (c : Dev nD) (Gf : S4x4096x256.Idx → EReal)
    (hpay : ∀ (t : Fin cfg0.N) (z : Fin 1) (s : Fin 4096) (d : Fin 256),
      out0_5 (iblk (F := Ideal) m c 0 t) (iblk m c 1 t) (iblk m c 2 t) (iblk m c 3 t) (iblk m c 4 t) (ix3 z s d) = Gf (ix3 (pointBatch t) s d)) :
    (dats (F := Ideal) m 0 c).arrAt 5 cfg0.N = Gf :=
  arrAt_of_payload_any (F := Ideal) m c Gf hpay

end Cert.KernelIdeal.Blocks

end
-- ==== Proof.KernelArray.lean ====
/-
  The kernel's output array after the run is the specification `Spec.resultK` of the argument arrays.

  Grid point t works on batch t: its input block is member t of x, its four weight blocks are the whole weight arrays, and
  what its body leaves in the output buffer is four layers of that member (Proof/KernelLayer.lean `body_eq`); the output
  blocks of the four points tile the array (Proof/OutputBlocks.lean), so the array is the specification everywhere.
-/
import proofs.«168384_j71511205478734_2_alg».proof.Proof.KernelLayer
import proofs.«168384_j71511205478734_2_alg».proof.Proof.OutputBlocks
import proofs.«168384_j71511205478734_2_alg».proof.Proof.Spec

noncomputable section

namespace Cert.KernelSide

open Cert.KernelIdeal Cert.KernelIdeal.Gen Idealize.ShloMosaic Idealize.ShloMosaic.ValueIdx Idealize.ShloMosaic.TcCoe Idealize.SL.Sem
open Cert.LinAttn Cert.MatView Cert.Spec Cert.KernelIdeal.Blocks

/-- After the run the output array is `resultK` of the five argument arrays as launched. -/
theorem array_eq (m : (ℓ : Loc nD τ sig) → Buf (Elt Ideal) ℓ) (c : Dev nD) :
    (dats (F := Ideal) m 0 c).arrAt 5 cfg0.N
      = resultK (m ((c : Thread nD τ).loc main_arg0)) (m ((c : Thread nD τ).loc main_arg1)) (m ((c : Thread nD τ).loc main_arg2))
          (m ((c : Thread nD τ).loc main_arg3)) (m ((c : Thread nD τ).loc main_arg4)) :=
  arrAt_of_payload m c _ fun t z s d => by
    refine (body_eq _ _ _ _ _ z s d).trans ?_
    have e0 : slab (iblk (F := Ideal) m c 0 t : S1x4096x256.Idx → EReal) 0 = slab (m ((c : Thread nD τ).loc main_arg0)) (pointBatch t) :=
      funext fun a => funext fun b => iblk0_apply m c t 0 a b
    have e1 : slab (iblk (F := Ideal) m c 1 t : S4x256x64.Idx → EReal) = slab (m ((c : Thread nD τ).loc main_arg1)) :=
      funext fun l => funext fun a => funext fun b => iblk1_apply m c t l a b
    have e2 : slab (iblk (F := Ideal) m c 2 t : S4x256x64.Idx → EReal) = slab (m ((c : Thread nD τ).loc main_arg2)) :=
      funext fun l => funext fun a => funext fun b => iblk2_apply m c t l a b
    have e3 : slab (iblk (F := Ideal) m c 3 t : S4x256x64.Idx → EReal) = slab (m ((c : Thread nD τ).loc main_arg3)) :=
      funext fun l => funext fun a => funext fun b => iblk3_apply m c t l a b
    have e4 : slab (iblk (F := Ideal) m c 4 t : S4x64x256.Idx → EReal) = slab (m ((c : Thread nD τ).loc main_arg4)) :=
      funext fun l => funext fun a => funext fun b => iblk4_apply m c t l a b
    rw [resultK_apply]
    exact congrFun (congrFun (by rw [e0, e1, e2, e3, e4]) s) d

end Cert.KernelSide

end
-- ==== Proof.RefLayer.lean ====
import proofs.«168384_j71511205478734_2_alg».proof.Proof.Gen.ReferenceIdeal.Run
import proofs.«168384_j71511205478734_2_alg».proof.Proof.LinAttn
import proofs.«168384_j71511205478734_2_alg».proof.Proof.DotRead
import proofs.«168384_j71511205478734_2_alg».proof.Proof.MatView
import Idealize.ShloMosaic.Lib.StackMember

/-!
  The reference program is four layers of linear attention without softmax, every context with the scores first.

  In the host's spelling a layer on a stack X of four [4096,256] matrices is four matrix products and an addition:
  the three projections Q = X·Wq, K = X·Wk, V = X·Wv (one weight matrix for every member of the stack), the scores
  Q·Kᵀ member by member (both contracted on their last axis), the context scores·V member by member, the update
  context·Wp, and X + update. Read at an entry each product is a finite sum over its one contracted coordinate, so member
  `b` of the layer's result is `LinAttn.layerR` of member `b` of X with the four weight matrices (`rlayer`): the members
  do not mix. The weights of layer `l` are the slice [l:l+1] of the stacked weight arrays with the unit axis dropped,
  which is member `l` of the array (`wview`, `pview`). Layer after layer (`layer_of_views` four times) the program's
  result at entry (b,s,d) is the (s,d) entry of four layers of member `b` of the first argument (`ref_eq`).
-/

noncomputable section

open scoped BigOperators

namespace Cert.RefSide

open Cert.ReferenceIdeal Cert.ReferenceIdeal.Gen Cert.ReferenceIdeal.Value Idealize.ShloMosaic Idealize.ShloMosaic.ValueIdx
  Idealize.ShloMosaic.StableHlo Cert.LinAttn Cert.DotRead Cert.MatView

/-! ## The four products of a layer at an entry -/

/-- A projection X·W of every member ([4,4096,256]·[256,64]) at entry (g,a,b). -/
theorem xw_apply {φ₁ φ₂ : FTy} (prec : Option ContractPrecision) (A : FVec Ideal S4x4096x256 φ₁) (B : FVec Ideal S256x64 φ₂)
    (g : Fin 4) (a : Fin 4096) (b : Fin 64) :
    Host.dotGeneral dot_S4x4096x256_S256x64_S4x4096x64_2_0_01_1_n_n prec A B (ix3 g a b) = ∑ c : Fin 256, A (ix3 g a c) * B (ix2 c b) :=
  hostDot_stack_weight dot_S4x4096x256_S256x64_S4x4096x64_2_0_01_1_n_n.wf prec A B g a b

/-- The scores Q·Kᵀ, member by member ([4,4096,64]·[4,4096,64]ᵀ, both contracted on the last axis), at entry (g,a,b). -/
theorem qk_apply {φ₁ φ₂ : FTy} (prec : Option ContractPrecision) (A : FVec Ideal S4x4096x64 φ₁) (B : FVec Ideal S4x4096x64 φ₂)
    (g : Fin 4) (a : Fin 4096) (b : Fin 4096) :
    Host.dotGeneral dot_S4x4096x64_S4x4096x64_S4x4096x4096_2_2_1_1_0_0 prec A B (ix3 g a b) = ∑ c : Fin 64, A (ix3 g a c) * B (ix3 g b c) :=
  hostDot_stack_lastLast dot_S4x4096x64_S4x4096x64_S4x4096x4096_2_2_1_1_0_0.wf prec A B g a b

/-- The context scores·V, member by member ([4,4096,4096]·[4,4096,64]), at entry (g,a,b). -/
theorem sv_apply {φ₁ φ₂ : FTy} (prec : Option ContractPrecision) (A : FVec Ideal S4x4096x4096 φ₁) (B : FVec Ideal S4x4096x64 φ₂)
    (g : Fin 4) (a : Fin 4096) (b : Fin 64) :
    Host.dotGeneral dot_S4x4096x4096_S4x4096x64_S4x4096x64_2_1_1_2_0_0 prec A B (ix3 g a b) = ∑ c : Fin 4096, A (ix3 g a c) * B (ix3 g c b) :=
  StackMember.dotGeneral_stack_apply dot_S4x4096x4096_S4x4096x64_S4x4096x64_2_1_1_2_0_0.wf prec A B g a b

/-- The update context·Wp of every member ([4,4096,64]·[64,256]) at entry (g,a,b). -/
theorem cp_apply {φ₁ φ₂ : FTy} (prec : Option ContractPrecision) (A : FVec Ideal S4x4096x64 φ₁) (B : FVec Ideal S64x256 φ₂)
    (g : Fin 4) (a : Fin 4096) (b : Fin 256) :
    Host.dotGeneral dot_S4x4096x64_S64x256_S4x4096x256_2_0_01_1_n_n prec A B (ix3 g a b) = ∑ c : Fin 64, A (ix3 g a c) * B (ix2 c b) :=
  hostDot_stack_weight dot_S4x4096x64_S64x256_S4x4096x256_2_0_01_1_n_n.wf prec A B g a b

/-! ## A layer over variables -/

/-- One layer over variables: member `b` of the result is the layer, scores first, of member `b` of the input. -/
theorem rlayer (X : FVec Ideal S4x4096x256 .f32) (wq wk wv : FVec Ideal S256x64 .f32) (wp : FVec Ideal S64x256 .f32)
    (b : Fin 4) (Y : Fin 4096 → Fin 256 → EReal) (hX : slab X b = Y) :
    slab (addf X (Host.dotGeneral dot_S4x4096x64_S64x256_S4x4096x256_2_0_01_1_n_n none
        (Host.dotGeneral dot_S4x4096x4096_S4x4096x64_S4x4096x64_2_1_1_2_0_0 none
          (Host.dotGeneral dot_S4x4096x64_S4x4096x64_S4x4096x4096_2_2_1_1_0_0 none
            (Host.dotGeneral dot_S4x4096x256_S256x64_S4x4096x64_2_0_01_1_n_n none X wq)
            (Host.dotGeneral dot_S4x4096x256_S256x64_S4x4096x64_2_0_01_1_n_n none X wk))
          (Host.dotGeneral dot_S4x4096x256_S256x64_S4x4096x64_2_0_01_1_n_n none X wv)) wp)) b
      = layerR Y (mat wq) (mat wk) (mat wv) (mat wp) := by
  have eX : ∀ s e, X (ix3 b s e) = Y s e := fun s e => congrFun (congrFun hX s) e
  funext s d
  simp only [slab, mat, layerR, ctxR, proj, addf_apply, cp_apply, sv_apply, qk_apply, xw_apply, eX]

/-! ## The weights of a layer -/

/-- The slice [l:l+1] of a [4,256,64] array with its unit axis dropped is member `l` of the array. -/
theorem wview (W : FVec Ideal S4x256x64 .f32) (l : Nat) (hl : l < 4) (h1 : S4x256x64.Slices ![l, 0, 0] S1x256x64) :
    mat (shapeCast S256x64 (extractStridedSlice S1x256x64 ![l, 0, 0] W h1) shapeCasts_S1x256x64_S256x64) = slab W ⟨l, hl⟩ :=
  funext fun a => funext fun b => (dropUnit_apply _ _ a b).trans (slice_slab W l hl h1 0 a b)

/-- The same for the [4,64,256] array of the output projections. -/
theorem pview (W : FVec Ideal S4x64x256 .f32) (l : Nat) (hl : l < 4) (h4 : S4x64x256.Slices ![l, 0, 0] S1x64x256) :
    mat (shapeCast S64x256 (extractStridedSlice S1x64x256 ![l, 0, 0] W h4) shapeCasts_S1x64x256_S64x256) = slab W ⟨l, hl⟩ :=
  funext fun a => funext fun b => (dropUnit_apply _ _ a b).trans (slice_slab W l hl h4 0 a b)

/-- Layer `l` as the program spells it, its weights sliced out of the stacked arrays: member `b` of the result is the
    layer of member `b` of the input with member `l` of each weight array. -/
theorem layer_of_views (X : FVec Ideal S4x4096x256 .f32) (W1 W2 W3 : FVec Ideal S4x256x64 .f32) (W4 : FVec Ideal S4x64x256 .f32)
    (l : Nat) (hl : l < 4) (h1 : S4x256x64.Slices ![l, 0, 0] S1x256x64) (h4 : S4x64x256.Slices ![l, 0, 0] S1x64x256)
    (b : Fin 4) (Y : Fin 4096 → Fin 256 → EReal) (hX : slab X b = Y) :
    slab (addf X (Host.dotGeneral dot_S4x4096x64_S64x256_S4x4096x256_2_0_01_1_n_n none
        (Host.dotGeneral dot_S4x4096x4096_S4x4096x64_S4x4096x64_2_1_1_2_0_0 none
          (Host.dotGeneral dot_S4x4096x64_S4x4096x64_S4x4096x4096_2_2_1_1_0_0 none
            (Host.dotGeneral dot_S4x4096x256_S256x64_S4x4096x64_2_0_01_1_n_n none X (shapeCast S256x64 (extractStridedSlice S1x256x64 ![l, 0, 0] W1 h1) shapeCasts_S1x256x64_S256x64))
            (Host.dotGeneral dot_S4x4096x256_S256x64_S4x4096x64_2_0_01_1_n_n none X (shapeCast S256x64 (extractStridedSlice S1x256x64 ![l, 0, 0] W2 h1) shapeCasts_S1x256x64_S256x64)))
          (Host.dotGeneral dot_S4x4096x256_S256x64_S4x4096x64_2_0_01_1_n_n none X (shapeCast S256x64 (extractStridedSlice S1x256x64 ![l, 0, 0] W3 h1) shapeCasts_S1x256x64_S256x64))) (shapeCast S64x256 (extractStridedSlice S1x64x256 ![l, 0, 0] W4 h4) shapeCasts_S1x64x256_S64x256))) b
      = layerR Y (slab W1 ⟨l, hl⟩) (slab W2 ⟨l, hl⟩) (slab W3 ⟨l, hl⟩) (slab W4 ⟨l, hl⟩) :=
  (rlayer X _ _ _ _ b Y hX).trans (by rw [wview W1 l hl h1, wview W2 l hl h1, wview W3 l hl h1, pview W4 l hl h4])

/-! ## The whole program -/

/-- THE REFERENCE'S RESULT at entry (b,s,d): the (s,d) entry of four layers, scores first, of member `b` of the first
    argument, layer `l` with member `l` of each of the four weight arrays. -/
theorem ref_eq (V0 : Valuation τ sig (Elt Ideal)) (b : Fin 4) (s : Fin 4096) (d : Fin 256) :
    (addf (res_main_v44 V0) (Host.dotGeneral (φ₁ := .f32) (φ₂ := .f32) dot_S4x4096x64_S64x256_S4x4096x256_2_0_01_1_n_n none (Host.dotGeneral (φ₁ := .f32) (φ₂ := .f32) dot_S4x4096x4096_S4x4096x64_S4x4096x64_2_1_1_2_0_0 none (Host.dotGeneral (φ₁ := .f32) (φ₂ := .f32) dot_S4x4096x64_S4x4096x64_S4x4096x4096_2_2_1_1_0_0 none (Host.dotGeneral (φ₁ := .f32) (φ₂ := .f32) dot_S4x4096x256_S256x64_S4x4096x64_2_0_01_1_n_n none (res_main_v44 V0) (shapeCast _ (extractStridedSlice S1x256x64 ![3, 0, 0] (V0 (Proc.devRef .tc main_arg1)) slices_S4x256x64_S1x256x64_3_0_0) shapeCasts_S1x256x64_S256x64)) (Host.dotGeneral (φ₁ := .f32) (φ₂ := .f32) dot_S4x4096x256_S256x64_S4x4096x64_2_0_01_1_n_n none (res_main_v44 V0) (shapeCast _ (extractStridedSlice S1x256x64 ![3, 0, 0] (V0 (Proc.devRef .tc main_arg2)) slices_S4x256x64_S1x256x64_3_0_0) shapeCasts_S1x256x64_S256x64))) (Host.dotGeneral (φ₁ := .f32) (φ₂ := .f32) dot_S4x4096x256_S256x64_S4x4096x64_2_0_01_1_n_n none (res_main_v44 V0) (shapeCast _ (extractStridedSlice S1x256x64 ![3, 0, 0] (V0 (Proc.devRef .tc main_arg3)) slices_S4x256x64_S1x256x64_3_0_0) shapeCasts_S1x256x64_S256x64))) (shapeCast _ (extractStridedSlice S1x64x256 ![3, 0, 0] (V0 (Proc.devRef .tc main_arg4)) slices_S4x64x256_S1x64x256_3_0_0) shapeCasts_S1x64x256_S64x256))) (ix3 b s d)
      = stackR (slab (V0 (Proc.devRef .tc main_arg0) : S4x4096x256.Idx → EReal) b) (slab (V0 (Proc.devRef .tc main_arg1) : S4x256x64.Idx → EReal))
          (slab (V0 (Proc.devRef .tc main_arg2) : S4x256x64.Idx → EReal)) (slab (V0 (Proc.devRef .tc main_arg3) : S4x256x64.Idx → EReal))
          (slab (V0 (Proc.devRef .tc main_arg4) : S4x64x256.Idx → EReal)) s d := by
  have h14 := layer_of_views (V0 (Proc.devRef .tc main_arg0)) (V0 (Proc.devRef .tc main_arg1)) (V0 (Proc.devRef .tc main_arg2)) (V0 (Proc.devRef .tc main_arg3)) (V0 (Proc.devRef .tc main_arg4)) 0 (by decide)
    slices_S4x256x64_S1x256x64_0_0_0 slices_S4x64x256_S1x64x256_0_0_0 b _ rfl
  have h29 := layer_of_views (res_main_v14 V0) (V0 (Proc.devRef .tc main_arg1)) (V0 (Proc.devRef .tc main_arg2)) (V0 (Proc.devRef .tc main_arg3)) (V0 (Proc.devRef .tc main_arg4)) 1 (by decide)
    slices_S4x256x64_S1x256x64_1_0_0 slices_S4x64x256_S1x64x256_1_0_0 b _ h14
  have h44 := layer_of_views (res_main_v29 V0) (V0 (Proc.devRef .tc main_arg1)) (V0 (Proc.devRef .tc main_arg2)) (V0 (Proc.devRef .tc main_arg3)) (V0 (Proc.devRef .tc main_arg4)) 2 (by decide)
    slices_S4x256x64_S1x256x64_2_0_0 slices_S4x64x256_S1x64x256_2_0_0 b _ h29
  have h59 := layer_of_views (res_main_v44 V0) (V0 (Proc.devRef .tc main_arg1)) (V0 (Proc.devRef .tc main_arg2)) (V0 (Proc.devRef .tc main_arg3)) (V0 (Proc.devRef .tc main_arg4)) 3 (by decide)
    slices_S4x256x64_S1x256x64_3_0_0 slices_S4x64x256_S1x64x256_3_0_0 b _ h44
  exact congrFun (congrFun h59 s) d

end Cert.RefSide

end
-- ==== Proof.lean ====
/-
  Four stacked layers of linear self-attention (no softmax) with residuals: the fused kernel against the layer-by-layer
  reference, equal on the extended reals for finite inputs.

  Per batch b and layer l, with Q = x·Wq_l, K = x·Wk_l, V = x·Wv_l, the kernel computes x + (Q·(KᵀV))·Wp_l — the small
  64×64 matrix KᵀV first, summed over the 4096 rows — and the reference x + ((QKᵀ)·V)·Wp_l — the 4096×4096 scores first.
  At the ideal values every change of float format is the identity and every product is the exact sum of products, so the
  two differ only by the grouping of a triple matrix product. Associativity of the matrix product is distributivity over
  finite sums, which on the extended reals fails at the infinities: the precondition (every input entry finite) is USED,
  once, to read the arguments as real matrices (Proof/FiniteInputs.lean); over the reals both groupings of a layer are one
  real layer, whose result is real again, so the four layers compose (Proof/LinAttn.lean `four_layers`).

  The kernel side: one grid point per batch; the body's stored value is four layers of its input block with the slabs of
  the weight buffers (Proof/KernelLayer.lean), the four output blocks tile the output array (Proof/OutputBlocks.lean), so
  the array is `Spec.resultK` of the arguments (Proof/KernelArray.lean). The reference side: its run's term for the result
  is, entry by entry, `Spec.resultR` of the arguments (Proof/RefLayer.lean). The idealization rewrote nothing, so that
  conjunct is trivial; the three frames are the generated ones, the reference's being its run with the value dropped.
-/
import proofs.«168384_j71511205478734_2_alg».proof.Defs
import proofs.«168384_j71511205478734_2_alg».proof.Proof.Gen.Kernel
import proofs.«168384_j71511205478734_2_alg».proof.Proof.Gen.Kernel.Skeleton
import proofs.«168384_j71511205478734_2_alg».proof.Proof.Gen.Kernel.Launch
import proofs.«168384_j71511205478734_2_alg».proof.Proof.Gen.Kernel.Points
import proofs.«168384_j71511205478734_2_alg».proof.Proof.Gen.Kernel.Frame
import proofs.«168384_j71511205478734_2_alg».proof.Proof.Gen.KernelIdeal
import proofs.«168384_j71511205478734_2_alg».proof.Proof.Gen.KernelIdeal.Skeleton
import proofs.«168384_j71511205478734_2_alg».proof.Proof.Gen.KernelIdeal.Launch
import proofs.«168384_j71511205478734_2_alg».proof.Proof.Gen.KernelIdeal.Points
import proofs.«168384_j71511205478734_2_alg».proof.Proof.Gen.KernelIdeal.Frame
import proofs.«168384_j71511205478734_2_alg».proof.Proof.Gen.ReferenceIdeal
import proofs.«168384_j71511205478734_2_alg».proof.Proof.Gen.Pre_finite_inputs
import proofs.«168384_j71511205478734_2_alg».proof.Proof.Gen.KernelIdeal.Value
import proofs.«168384_j71511205478734_2_alg».proof.Proof.Gen.ReferenceIdeal.Run
import proofs.«168384_j71511205478734_2_alg».proof.Proof.FiniteInputs
import proofs.«168384_j71511205478734_2_alg».proof.Proof.Spec
import proofs.«168384_j71511205478734_2_alg».proof.Proof.KernelArray
import proofs.«168384_j71511205478734_2_alg».proof.Proof.RefLayer
import Idealize.ShloMosaic.Adequacy
import Idealize.ShloMosaic.Init

noncomputable section

namespace Cert.Proof

open Idealize.ShloMosaic Idealize.ShloMosaic.TcCoe Idealize.SL.Sem Idealize.ShloMosaic.StableHlo

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, all of whose entries are finite, the idealized kernel's output array
    is `resultK` of the arguments and the reference's result is `resultR` of them; with real entries the two are one array. -/
theorem algebraic : Cert.algebraic_KernelIdeal_ReferenceIdeal := by
  intro m ρ m' ρ' hpre hagree
  refine ⟨fun c => Cert.Spec.resultK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelSide.array_eq m c), (h c).2⟩) (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨hx, hq, hk, hv, hp⟩ := Cert.FiniteInputs.real_of_pre _ _ _ _ _ (hpre c)
    obtain ⟨a0, a1, a2, a3, a4⟩ := hagree c
    have e0 : launchContents m' c (Proc.devRef .tc Cert.ReferenceIdeal.main_arg0) = m ((c.tc : Thread Cert.KernelIdeal.nD Cert.KernelIdeal.τ).loc Cert.KernelIdeal.main_arg0) := a0
    have e1 : launchContents m' c (Proc.devRef .tc Cert.ReferenceIdeal.main_arg1) = m ((c.tc : Thread Cert.KernelIdeal.nD Cert.KernelIdeal.τ).loc Cert.KernelIdeal.main_arg1) := a1
    have e2 : launchContents m' c (Proc.devRef .tc Cert.ReferenceIdeal.main_arg2) = m ((c.tc : Thread Cert.KernelIdeal.nD Cert.KernelIdeal.τ).loc Cert.KernelIdeal.main_arg2) := a2
    have e3 : launchContents m' c (Proc.devRef .tc Cert.ReferenceIdeal.main_arg3) = m ((c.tc : Thread Cert.KernelIdeal.nD Cert.KernelIdeal.τ).loc Cert.KernelIdeal.main_arg3) := a3
    have e4 : launchContents m' c (Proc.devRef .tc Cert.ReferenceIdeal.main_arg4) = m ((c.tc : Thread Cert.KernelIdeal.nD Cert.KernelIdeal.τ).loc Cert.KernelIdeal.main_arg4) := a4
    show _ = Cert.Spec.resultK _ _ _ _ _
    rw [Cert.Spec.resultK_eq_resultR _ _ _ _ _ hx hq hk hv hp]
    refine Cert.Spec.ext3 fun b s d => ?_
    rw [Cert.RefSide.ref_eq, Cert.Spec.resultR_apply, e0, e1, e2, e3, e4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
